-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg8 : FVec F S64x32 .f32) (main_arg9 : FVec F S32 .f32) (main_arg10 : FVec F S32 .f32) (main_arg11 : FVec F S32 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg5 : FVec F S64 .f32) (main_arg6 : FVec F S64 .f32) (main_arg7 : FVec F S64x32 .f32) (main_arg8 : FVec F S64x32 .f32) (main_arg9 : FVec F S32 .f32) (main_arg10 : FVec F S32 .f32) (main_arg11 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x64 .f32) (main_arg3 : FVec F S128x64 .f32) (main_arg4 : FVec F S64 .f32) (main_arg5 : FVec F S64 .f32) (main_arg6 : FVec F S64 .f32) (main_arg7 : FVec F S64x32 .f32) (main_arg8 : FVec F S64x32 .f32) (main_arg9 : FVec F S32 .f32) (main_arg10 : FVec F S32 .f32) (main_arg11 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S5000 : Shape := ⟨1, ![5000]⟩
abbrev S5000x1 : Shape := ⟨2, ![5000, 1]⟩
abbrev S1600000x64 : Shape := ⟨2, ![1600000, 64]⟩
abbrev S1x32 : Shape := ⟨2, ![1, 32]⟩
abbrev S100000x32 : Shape := ⟨2, ![100000, 32]⟩
abbrev S10000x64 : Shape := ⟨2, ![10000, 64]⟩
abbrev S10000x32 : Shape := ⟨2, ![10000, 32]⟩
abbrev S10000 : Shape := ⟨1, ![10000]⟩
abbrev S10000x1 : Shape := ⟨2, ![10000, 1]⟩

abbrev nBuf : Space → Nat
  | .hbm => 65
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x32, .f32⟩
  | .hbm, ⟨8, _⟩ => ⟨S64x32, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x32, .f32⟩
  | .hbm, ⟨62, _⟩ => ⟨S1x32, .f32⟩
  | .hbm, ⟨63, _⟩ => ⟨S1x32, .f32⟩
  | .hbm, ⟨64, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S64x32, .f32⟩
  | .local _ .vmem, ⟨16, _⟩ => ⟨S64x32, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | .local _ .vmem, ⟨20, _⟩ => ⟨S10000x32, .f32⟩
  | .local _ .vmem, ⟨21, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S32_S1x32 : S32.ShapeCasts S1x32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x32.size a ≤ S100000x32.size a
  hwx1_7 : ∀ i : grid1.Coords, EltTy.bits .f32 = 32 ∨ (Rect.block (s := S100000x32) S10000x32.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v25) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S10000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x32 : Shape := ⟨2, ![100000, 32]⟩
abbrev S1x32 : Shape := ⟨2, ![1, 32]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S128x64, .f32⟩
  | 4 => ⟨S64, .f32⟩
  | 5 => ⟨S64, .f32⟩
  | 6 => ⟨S64, .f32⟩
  | 7 => ⟨S64x32, .f32⟩
  | 8 => ⟨S64x32, .f32⟩
  | 9 => ⟨S32, .f32⟩
  | 10 => ⟨S32, .f32⟩
  | 11 => ⟨S32, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S100000x128, .f32⟩
  | 27 => ⟨S1600000x1, .i32⟩
  | 28 => ⟨S100000x128, .f32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S100000x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000, .f32⟩
  | 50 => ⟨S100000x1, .f32⟩
  | 51 => ⟨S_, .f32⟩
  | 52 => ⟨S100000x1, .f32⟩
  | 53 => ⟨S100000x1, .f32⟩
  | 54 => ⟨S100000x64, .f32⟩
  | 55 => ⟨S100000x64, .f32⟩
  | 56 => ⟨S100000x64, .f32⟩
  | 57 => ⟨S_, .f32⟩
  | 58 => ⟨S100000, .f32⟩
  | 59 => ⟨S100000x1, .f32⟩
  | 60 => ⟨S_, .f32⟩
  | 61 => ⟨S100000x1, .f32⟩
  | 62 => ⟨S100000x1, .f32⟩
  | 63 => ⟨S100000x64, .f32⟩
  | 64 => ⟨S100000x64, .f32⟩
  | 65 => ⟨S_, .f32⟩
  | 66 => ⟨S100000x1, .f32⟩
  | 67 => ⟨S100000x1, .f32⟩
  | 68 => ⟨S100000x1, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S_, .f32⟩
  | 90 => ⟨S100000x64, .f32⟩
  | 91 => ⟨S1600000x1, .i32⟩
  | 92 => ⟨S100000x64, .f32⟩
  | 93 => ⟨S_, .f32⟩
  | 94 => ⟨S1600000, .f32⟩
  | 95 => ⟨S_, .f32⟩
  | 96 => ⟨S100000, .f32⟩
  | 97 => ⟨S1600000x1, .i32⟩
  | 98 => ⟨S100000, .f32⟩
  | 99 => ⟨S_, .f32⟩
  | 100 => ⟨S_, .f32⟩
  | 101 => ⟨S100000, .f32⟩
  | 102 => ⟨S100000, .f32⟩
  | 103 => ⟨S100000x1, .f32⟩
  | 104 => ⟨S100000x64, .f32⟩
  | 105 => ⟨S100000x64, .f32⟩
  | 106 => ⟨S100000x32, .f32⟩
  | 107 => ⟨S100000x32, .f32⟩
  | 108 => ⟨S100000x32, .f32⟩
  | 109 => ⟨S1x32, .f32⟩
  | 110 => ⟨S100000x32, .f32⟩
  | 111 => ⟨S100000x32, .f32⟩
  | 112 => ⟨S_, .f32⟩
  | 113 => ⟨S100000, .f32⟩
  | 114 => ⟨S100000x1, .f32⟩
  | 115 => ⟨S_, .f32⟩
  | 116 => ⟨S100000x1, .f32⟩
  | 117 => ⟨S100000x1, .f32⟩
  | 118 => ⟨S100000x32, .f32⟩
  | 119 => ⟨S100000x32, .f32⟩
  | 120 => ⟨S100000x32, .f32⟩
  | 121 => ⟨S_, .f32⟩
  | 122 => ⟨S100000, .f32⟩
  | 123 => ⟨S100000x1, .f32⟩
  | 124 => ⟨S_, .f32⟩
  | 125 => ⟨S100000x1, .f32⟩
  | 126 => ⟨S100000x1, .f32⟩
  | 127 => ⟨S100000x32, .f32⟩
  | _ => ⟨S100000x128, .f32⟩

abbrev hbmTy0_1 (i : Nat) : BufTy := match i % 128 with
  | 0 => ⟨S100000x32, .f32⟩
  | 1 => ⟨S_, .f32⟩
  | 2 => ⟨S100000x1, .f32⟩
  | 3 => ⟨S100000x1, .f32⟩
  | 4 => ⟨S100000x1, .f32⟩
  | 5 => ⟨S100000x32, .f32⟩
  | 6 => ⟨S100000x32, .f32⟩
  | 7 => ⟨S1x32, .f32⟩
  | 8 => ⟨S100000x32, .f32⟩
  | 9 => ⟨S100000x32, .f32⟩
  | 10 => ⟨S1x32, .f32⟩
  | 11 => ⟨S100000x32, .f32⟩
  | 12 => ⟨S100000x32, .f32⟩
  | 13 => ⟨S_, .f32⟩
  | 14 => ⟨S100000x32, .f32⟩
  | 15 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_cst : Ref sig .tc := ⟨.hbm, 77, rfl⟩
abbrev main_call1_v0 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_call2_v0 : Ref sig .tc := ⟨.hbm, 100, rfl⟩
abbrev main_call2_v1 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_cst_16 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_17 : Ref sig .tc := ⟨.hbm, 121, rfl⟩
abbrev main_v84 : Ref sig .tc := ⟨.hbm, 122, rfl⟩
abbrev main_v85 : Ref sig .tc := ⟨.hbm, 123, rfl⟩
abbrev main_cst_18 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_19 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call3_cst : Ref sig .tc := ⟨.hbm, 141, rfl⟩
abbrev main_call3_v0 : Ref sig .tc := ⟨.hbm, 142, rfl⟩
abbrev main_v101 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The kernel program's run with its result named: every weakly fair execution of @main ends with the result array at the
  contents the last grid leaves — the boundary contents after the second pallas_call, read at the result's buffer — and
  the argument arrays as launched. The run is the chain of @main's six segments (three stretches of host operations, the
  first grid, a stretch, the second grid) from the launch memory; the final thread state holds every unscoped buffer at
  the last boundary's contents, and the final memory is read against it.
-/
import proofs.«170184_j14783277433239_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents. -/
theorem run_out : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.ValueRun

end
-- ==== Proof.DenseSpec.lean ====
/-
  One graph layer after the neighbour mean, as a function of its operands, entry by entry.

  For a row x of node features, the row a of averaged neighbour features, two weight matrices and a bias, the layer
  first forms z_j = Σ_k x_k · Ws[k, j] + Σ_k a_k · Wn[k, j] + b_j, then normalises the row: with mu the mean of z and var
  the mean of the squared deviations (z_j - mu)², the entry is max(((z_q - mu) · rsqrt(var + eps)) · g_q + be_q, 0).
  The mean is a quotient by the row length n, supplied (like eps and the zero) as an extended real, so that the same
  formula serves every width. Sums are plain finite sums on the extended reals.
-/
import Idealize.ShloMosaic.PureOps.Ideal
import Idealize.ShloMosaic.Lib.ValueIdx

noncomputable section

open scoped BigOperators

namespace Cert.Sage

open Idealize.ShloMosaic Idealize.ShloMosaic.ValueIdx

/-- The affine part of a row: z_j = Σ_k x_k · ws k j + Σ_k a_k · wn k j + b_j. -/
def affine {K M : Nat} (x a : Fin K → EReal) (ws wn : Fin K → Fin M → EReal) (b : Fin M → EReal) (j : Fin M) : EReal :=
  (∑ k : Fin K, x k * ws k j) + (∑ k : Fin K, a k * wn k j) + b j

/-- The mean of a row of length M as the quotient of its sum by `n`. -/
def mean {M : Nat} (z : Fin M → EReal) (n : EReal) : EReal := Ideal.div (∑ j : Fin M, z j) n

/-- Normalise a row, scale and shift it, and clamp at `zero`: entry q. -/
def normRelu {M : Nat} (z : Fin M → EReal) (n eps zero : EReal) (g be : Fin M → EReal) (q : Fin M) : EReal :=
  max ((z q - mean z n) * Ideal.rsqrt (mean (fun j => (z j - mean z n) * (z j - mean z n)) n + eps) * g q + be q) zero

/-- The layer's whole output: entry (p, q) from row p of the features X and of the neighbour means A, the two weight
    matrices, and the bias, scale and shift rows. -/
def layer {N K M : Nat} (X A : (⟨2, ![N, K]⟩ : Shape).Idx → EReal) (Ws Wn : (⟨2, ![K, M]⟩ : Shape).Idx → EReal)
    (b g be : Fin M → EReal) (n eps zero : EReal) : (⟨2, ![N, M]⟩ : Shape).Idx → EReal :=
  fun i => normRelu (affine (fun k => X (ix2 (i 0 : Fin N) k)) (fun k => A (ix2 (i 0 : Fin N) k))
      (fun k j => Ws (ix2 k j)) (fun k j => Wn (ix2 k j)) b) n eps zero g be (i 1 : Fin M)

theorem layer_apply {N K M : Nat} (X A : (⟨2, ![N, K]⟩ : Shape).Idx → EReal) (Ws Wn : (⟨2, ![K, M]⟩ : Shape).Idx → EReal)
    (b g be : Fin M → EReal) (n eps zero : EReal) (p : Fin N) (q : Fin M) :
    layer X A Ws Wn b g be n eps zero (ix2 p q)
      = normRelu (affine (fun k => X (ix2 p k)) (fun k => A (ix2 p k)) (fun k j => Ws (ix2 k j)) (fun k j => Wn (ix2 k j)) b)
          n eps zero g be q := rfl

/-- An entry of the layer depends on the features only through one row of each: a tile of rows cut out of the two
    feature arrays gives, at its row p', what the whole arrays give at the row p it was cut from. -/
theorem layer_of_rows {N N' K M : Nat} (X A : (⟨2, ![N, K]⟩ : Shape).Idx → EReal) (X' A' : (⟨2, ![N', K]⟩ : Shape).Idx → EReal)
    (Ws Wn Ws' Wn' : (⟨2, ![K, M]⟩ : Shape).Idx → EReal) (b g be b' g' be' : Fin M → EReal) (n eps zero : EReal)
    (p : Fin N) (p' : Fin N') (q : Fin M)
    (hX : ∀ k : Fin K, X' (ix2 p' k) = X (ix2 p k)) (hA : ∀ k : Fin K, A' (ix2 p' k) = A (ix2 p k))
    (hWs : Ws' = Ws) (hWn : Wn' = Wn) (hb : b' = b) (hg : g' = g) (hbe : be' = be) :
    layer X' A' Ws' Wn' b' g' be' n eps zero (ix2 p' q) = layer X A Ws Wn b g be n eps zero (ix2 p q) := by
  subst hWs hWn hb hg hbe
  rw [layer_apply, layer_apply]
  have e1 : (fun k => X' (ix2 p' k)) = fun k => X (ix2 p k) := funext hX
  have e2 : (fun k => A' (ix2 p' k)) = fun k => A (ix2 p k) := funext hA
  rw [e1, e2]

end Cert.Sage

end
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.LibColForm.lean ====
/-
  A column read at an index: a vector recast as a one-column matrix, and a one-column matrix stretched along its rows.
-/
import Idealize.ShloMosaic.Lib.ValueIdx
import Idealize.ShloMosaic.Lib.Pipeline.Value

namespace Cert.ColForm

open Idealize.ShloMosaic Idealize.ShloMosaic.ValueIdx

/-- A vector of length `n` recast as an `n × 1` matrix, read at row `j` and column `0`, is the vector at `j`: both
    positions are the `j`-th in row-major order. -/
theorem col_of_reshape {α : Type} {n : Nat} (v : (⟨1, ![n]⟩ : Shape).Idx → α)
    (h : (⟨1, ![n]⟩ : Shape).ShapeCasts ⟨2, ![n, 1]⟩) (j : Fin n) :
    shapeCast (⟨2, ![n, 1]⟩ : Shape) v h (ix2 j (0 : Fin 1)) = v (ix1 j) := by
  refine shapeCast_apply v h (ix2 j (0 : Fin 1)) (ix1 j) ?_
  rw [Shape.rowMajor_val_one, Shape.rowMajor_val_two]
  show j.val = j.val * 1 + 0
  omega

/-- An `m × 1` column stretched to `m × n` reads, at `(a, b)`, the column's entry `a`. -/
theorem broadcastCol_apply {α : Type} {m n : Nat} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) fun ax => ?_
  match ax with
  | ⟨0, _⟩ =>
    show a.val = if m = 1 then 0 else a.val
    by_cases hm : m = 1
    · rw [if_pos hm]; have := a.isLt; omega
    · rw [if_neg hm]
  | ⟨1, _⟩ => rfl

end Cert.ColForm
-- ==== Proof.LibLaneSum.lean ====
/-
  A sum along the second axis of a two-dimensional tile, read at a row.

  The float add-reduction of an m×n tile over its second axis, at the ideal values, holds at row p the finite sum of
  the row's n entries; the accumulator word is the zero word, the sum's neutral element, and does not appear.
-/
import Idealize.ShloMosaic.PureOps.Ideal.Laws
import Idealize.ShloMosaic.Lib.ValueIdx

noncomputable section

open scoped BigOperators

namespace Idealize.ShloMosaic.LaneSum

open Idealize.ShloMosaic.ValueIdx

/-- The add-reduction over axis 1 of an m×n tile, read at row p: the sum over j of the entries (p, j). -/
theorem laneSum_apply {m n : Nat} (src : FVec Ideal ⟨2, ![m, n]⟩ .f32)
    (h : (⟨2, ![m, n]⟩ : Shape).Reduces [(1 : Fin 2)] ⟨1, ![m]⟩) (hφ : FKind.Formats FTy.f32)
    (hacc : (0x00000000#32 : BitVec FTy.f32.bits) = FKind.add.neutral FTy.f32 hφ) (p : Fin m) :
    multiReduction .add [(1 : Fin 2)] ⟨1, ![m]⟩ src 0x00000000#32 h hφ hacc (ix1 p) = ∑ j : Fin n, src (ix2 p j) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => simp [Shape.Reduces.liftVal]
  | ⟨1, _⟩ => simp [Shape.Reduces.liftVal]

end Idealize.ShloMosaic.LaneSum

end
-- ==== Proof.KernelTile0.lean ====
/-
  What one tile of grid step of layer 0 leaves in its output block, entry by entry.

  The body multiplies the tile's rows of node features and of neighbour means by the two weight matrices (the roundings to a
  narrower float format on the way in are the identity on exact values), adds the bias row, takes each row's mean as a
  lane sum divided by the row length, centres the row, takes the mean of the squares, multiplies by the reciprocal square
  root of that plus the small constant, scales, shifts and clamps at zero. Read at (p, q) that is the layer formula of row
  p of the two tiles: each matrix product is a sum over the contracted coordinate, each lane sum a finite sum over the
  row, every stretched row or column its own entry.
-/
import proofs.«170184_j14783277433239_1_alg».proof.Proof.Gen.KernelIdeal.Frame
import proofs.«170184_j14783277433239_1_alg».proof.Proof.DenseSpec
import proofs.«170184_j14783277433239_1_alg».proof.Proof.LibTileOps
import proofs.«170184_j14783277433239_1_alg».proof.Proof.LibColForm
import proofs.«170184_j14783277433239_1_alg».proof.Proof.LibLaneSum
import Idealize.ShloMosaic.PureOps.Ideal.Laws
import Idealize.ShloMosaic.Lib.Pipeline.Value

noncomputable section

open scoped BigOperators

namespace Cert.KernelIdeal.Tile0

open Cert.KernelIdeal Cert.KernelIdeal.Gen Idealize.ShloMosaic Idealize.ShloMosaic.ValueIdx

theorem offsets_zero : (![0, 0] : Fin 2 → Nat) = fun _ => 0 := funext fun a => by fin_cases a <;> rfl

/-- The affine stage over the tile: the two products into zero tiles, added, plus the bias row stretched over the rows. -/
def affineT (x0 x1 : Vec Ideal S5000x128 .f32) (x2 x3 : Vec Ideal S128x64 .f32) (x4 : Vec Ideal S1x64 .f32) : FVec Ideal S5000x64 .f32 :=
  addf (addf (matmul dot_S5000x128_S128x64_S5000x64_1_0_0_1_n_n none (truncf .bf16 x0 bitsLt_bf16_f32) (truncf .bf16 x2 bitsLt_bf16_f32) (constant S5000x64 .f32 0x00000000#32))
      (matmul dot_S5000x128_S128x64_S5000x64_1_0_0_1_n_n none (truncf .bf16 (shapeCast S5000x128 x1 shapeCasts_S5000x128_S5000x128) bitsLt_bf16_f32) (truncf .bf16 x3 bitsLt_bf16_f32) (constant S5000x64 .f32 0x00000000#32)))
    (broadcastTo S5000x64 (shapeCast S1x64 x4 shapeCasts_S1x64_S1x64) broadcasts_S1x64_S5000x64)

/-- Each row's mean, as a column: the lane sum recast as a column, divided by the row length. -/
def meanT (v : FVec Ideal S5000x64 .f32) : FVec Ideal S5000x1 .f32 :=
  divf (shapeCast S5000x1 (multiReduction .add [1] S5000 v 0x00000000#32 reduces_S5000x64_S5000 (.inl rfl) rfl) shapeCasts_S5000_S5000x1)
    (broadcast S5000x1 (Scalar.ofBits .f32 0x42800000#32))

/-- The rows centred: each entry minus its row's mean. -/
def centredT (v : FVec Ideal S5000x64 .f32) : FVec Ideal S5000x64 .f32 :=
  subf v (broadcastTo S5000x64 (meanT v) broadcasts_S5000x1_S5000x64)

/-- The whole payload as the composition of the stages. -/
theorem payload_eq (x0 x1 : Vec Ideal S5000x128 .f32) (x2 x3 : Vec Ideal S128x64 .f32) (x4 x5 x6 : Vec Ideal S1x64 .f32) :
    k0_pay1 (k0_pay2 x0 x1 x2 x3 x4 x5) (k0_pay3 x6)
      = maximumf (addf (mulf (mulf (centredT (affineT x0 x1 x2 x3 x4))
            (broadcastTo S5000x64 (rsqrt (addf (meanT (mulf (centredT (affineT x0 x1 x2 x3 x4)) (centredT (affineT x0 x1 x2 x3 x4))))
              (broadcast S5000x1 (Scalar.ofBits .f32 0x3727C5AC#32)))) broadcasts_S5000x1_S5000x64))
            (broadcastTo S5000x64 (shapeCast S1x64 x5 shapeCasts_S1x64_S1x64) broadcasts_S1x64_S5000x64))
          (broadcastTo S5000x64 (shapeCast S1x64 x6 shapeCasts_S1x64_S1x64) broadcasts_S1x64_S5000x64))
        (broadcast S5000x64 (Scalar.ofBits .f32 0x00000000#32)) := rfl

/-- A bias-like row stretched over the tile's rows, read at (p, j): the row's entry j. -/
theorem row_apply (x : Vec Ideal S1x64 .f32) (p : Fin 5000) (j : Fin 64) :
    broadcastTo S5000x64 (shapeCast S1x64 x shapeCasts_S1x64_S1x64) broadcasts_S1x64_S5000x64 (ix2 p j) = x (ix2 (0 : Fin 1) j) := by
  rw [shapeCast_self]
  exact TileOps.broadcastRow_apply x broadcasts_S1x64_S5000x64 p j

/-- The affine stage at (p, j): the layer's affine formula of row p of the two tiles. -/
theorem affineT_apply (x0 x1 : Vec Ideal S5000x128 .f32) (x2 x3 : Vec Ideal S128x64 .f32) (x4 : Vec Ideal S1x64 .f32)
    (p : Fin 5000) (j : Fin 64) :
    affineT x0 x1 x2 x3 x4 (ix2 p j)
      = Sage.affine (fun k => x0 (ix2 p k)) (fun k => x1 (ix2 p k)) (fun k j => x2 (ix2 k j)) (fun k j => x3 (ix2 k j))
          (fun j => x4 (ix2 (0 : Fin 1) j)) j := by
  unfold affineT Sage.affine
  rw [shapeCast_self x1]
  show _ + _ + _ = _
  refine congrArg₂ (· + ·) (congrArg₂ (· + ·) ?_ ?_) ?_
  · exact TileOps.matmul_zero_apply dot_S5000x128_S128x64_S5000x64_1_0_0_1_n_n.wf none (truncf .bf16 x0 bitsLt_bf16_f32) (truncf .bf16 x2 bitsLt_bf16_f32) p j
  · exact TileOps.matmul_zero_apply dot_S5000x128_S128x64_S5000x64_1_0_0_1_n_n.wf none (truncf .bf16 x1 bitsLt_bf16_f32) (truncf .bf16 x3 bitsLt_bf16_f32) p j
  · exact row_apply x4 p j

/-- A row's mean at (p, 0): the mean of the row's entries. -/
theorem meanT_apply (v : FVec Ideal S5000x64 .f32) (p : Fin 5000) :
    meanT v (ix2 p (0 : Fin 1)) = Sage.mean (fun j => v (ix2 p j)) (Ideal.ofBits .f32 0x42800000#32) := by
  unfold meanT Sage.mean
  show Ideal.div _ _ = _
  refine congrArg₂ Ideal.div ?_ rfl
  refine (ColForm.col_of_reshape _ shapeCasts_S5000_S5000x1 p).trans ?_
  exact LaneSum.laneSum_apply v reduces_S5000x64_S5000 _ _ p

/-- A column stretched over the tile's columns, read at (p, q): the column's entry p. -/
theorem col_apply (x : FVec Ideal S5000x1 .f32) (p : Fin 5000) (q : Fin 64) :
    broadcastTo S5000x64 x broadcasts_S5000x1_S5000x64 (ix2 p q) = x (ix2 p (0 : Fin 1)) :=
  ColForm.broadcastCol_apply x broadcasts_S5000x1_S5000x64 p q

/-- The centred stage at (p, j). -/
theorem centredT_apply (v : FVec Ideal S5000x64 .f32) (p : Fin 5000) (j : Fin 64) :
    centredT v (ix2 p j) = v (ix2 p j) - Sage.mean (fun j => v (ix2 p j)) (Ideal.ofBits .f32 0x42800000#32) := by
  unfold centredT
  show _ - _ = _
  rw [col_apply, meanT_apply]

/-- WHAT THE BODY STORES, read at (p, q): the layer formula over the tile's own rows. -/
theorem out_apply (x0 x1 : Vec Ideal S5000x128 .f32) (x2 x3 : Vec Ideal S128x64 .f32) (x4 x5 x6 : Vec Ideal S1x64 .f32)
    (p : Fin 5000) (q : Fin 64) :
    out0_7 x0 x1 x2 x3 x4 x5 x6 (ix2 p q)
      = Sage.layer x0 x1 x2 x3 (fun j => x4 (ix2 (0 : Fin 1) j)) (fun j => x5 (ix2 (0 : Fin 1) j)) (fun j => x6 (ix2 (0 : Fin 1) j))
          (Ideal.ofBits .f32 0x42800000#32) (Ideal.ofBits .f32 0x3727C5AC#32) (Ideal.ofBits .f32 0x00000000#32) (ix2 p q) := by
  unfold out0_7
  rw [View.canon_unit_zero offsets_zero]
  simp only [View.ld_unit_zero (S := S5000x128) offsets_zero, View.ld_unit_zero (S := S128x64) offsets_zero,
    View.ld_unit_zero (S := S1x64) offsets_zero]
  rw [payload_eq, Sage.layer_apply]
  unfold Sage.normRelu
  show max (_ * _ * _ + _) _ = _
  rw [centredT_apply, col_apply, row_apply, row_apply]
  show max ((_ - _) * Ideal.rsqrt (_ + _) * _ + _) _ = _
  rw [meanT_apply]
  have hz : ∀ j : Fin 64, affineT x0 x1 x2 x3 x4 (ix2 p j)
      = Sage.affine (fun k => x0 (ix2 p k)) (fun k => x1 (ix2 p k)) (fun k j => x2 (ix2 k j)) (fun k j => x3 (ix2 k j))
          (fun j => x4 (ix2 (0 : Fin 1) j)) j := fun j => affineT_apply x0 x1 x2 x3 x4 p j
  have hsq : (fun j : Fin 64 => mulf (centredT (affineT x0 x1 x2 x3 x4)) (centredT (affineT x0 x1 x2 x3 x4)) (ix2 p j))
      = fun j => (affineT x0 x1 x2 x3 x4 (ix2 p j) - Sage.mean (fun j => affineT x0 x1 x2 x3 x4 (ix2 p j)) (Ideal.ofBits .f32 0x42800000#32))
          * (affineT x0 x1 x2 x3 x4 (ix2 p j) - Sage.mean (fun j => affineT x0 x1 x2 x3 x4 (ix2 p j)) (Ideal.ofBits .f32 0x42800000#32)) :=
    funext fun j => by show _ * _ = _; rw [centredT_apply]
  rw [hsq]
  simp only [hz]
  rfl

end Cert.KernelIdeal.Tile0

end
-- ==== Proof.KernelArrays0.lean ====
/-
  The array layer 0's grid leaves behind, as one function of the arrays it was entered with.

  Grid step t stages rows t·5000 … t·5000 + 4999 of the node features and of the neighbour means, the whole of both weight
  matrices and of the three rows, and writes back rows t·5000 … of the result. What it writes at (p, q) of its block is
  the layer formula of row p of the two staged tiles, and row p of a tile is row t·5000 + p of its array; so the block
  written back is the block of the whole-array layer function, and the 20 blocks tile the 100000 rows.
-/
import proofs.«170184_j14783277433239_1_alg».proof.Proof.KernelTile0

set_option maxRecDepth 16384

noncomputable section

open scoped BigOperators

namespace Cert.KernelIdeal.Arrays0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The layer over whole arrays: what window 7's array holds after the grid, from the arrays the region is entered with. -/
def whole (c : Dev nD) : S100000x64.Idx → EReal :=
  Sage.layer (N := 100000) (K := 128) (M := 64) (V c main_arg0) (V c main_v21) (V c main_arg2) (V c main_arg3)
    (fun j => V c main_v22 (ix2 (0 : Fin 1) j)) (fun j => V c main_v23 (ix2 (0 : Fin 1) j)) (fun j => V c main_v24 (ix2 (0 : Fin 1) j))
    (Ideal.ofBits .f32 0x42800000#32) (Ideal.ofBits .f32 0x3727C5AC#32) (Ideal.ofBits .f32 0x00000000#32)

/-- The printed index maps over the grid: the two row-tiled inputs and the output move together, one block of rows per
    step, and every other block index is zero. -/
theorem index_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem grid_points : grid0.N = 20 := N_0

/-- Row p of the tile staged at step t is row t·5000 + p of the array. -/
def rowOf (t : Fin cfg0.N) (p : Fin 5000) : Fin 100000 :=
  ⟨t.val * 5000 + p.val, by have := t.isLt; have e : cfg0.N = 20 := N_0; have := p.isLt; omega⟩

/-- A row-tiled input's staged tile read at (p, k): the array at (t·5000 + p, k). -/
theorem tile0_read (c : Dev nD) (t : Fin cfg0.N) (p : Fin 5000) (k : Fin 128) :
    iblk0 V c 0 t (ix2 p k) = V c main_arg0 (ix2 (rowOf t p) k) := by
  obtain ⟨-, -, e0, e1, -⟩ := index_facts t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem tile1_read (c : Dev nD) (t : Fin cfg0.N) (p : Fin 5000) (k : Fin 128) :
    iblk0 V c 1 t (ix2 p k) = V c main_v21 (ix2 (rowOf t p) k) := by
  obtain ⟨-, -, -, -, e0, e1, -⟩ := index_facts t
  show V c main_v21 (((cfg0.win 1).blk t).view.emb (ix2 p k)) = _
  refine congrArg (V c main_v21) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- A weight matrix is staged whole. -/
theorem tile2_read (c : Dev nD) (t : Fin cfg0.N) : (iblk0 V c 2 t : S128x64.Idx → EReal) = V c main_arg2 := by
  obtain ⟨-, -, -, -, -, -, e0, e1, -⟩ := index_facts t
  funext y
  show V c main_arg2 (((cfg0.win 2).blk t).view.emb y) = _
  refine congrArg (V c main_arg2) (funext fun a => Fin.ext ?_)
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

theorem tile3_read (c : Dev nD) (t : Fin cfg0.N) : (iblk0 V c 3 t : S128x64.Idx → EReal) = V c main_arg3 := by
  obtain ⟨-, -, -, -, -, -, -, -, e0, e1, -⟩ := index_facts t
  funext y
  show V c main_arg3 (((cfg0.win 3).blk t).view.emb y) = _
  refine congrArg (V c main_arg3) (funext fun a => Fin.ext ?_)
  match a with
  | ⟨0, _⟩ => show win0_3.index t (0 : Fin 2) * 128 + 1 * (y 0).val = (y 0).val; rw [e0]; omega
  | ⟨1, _⟩ => show win0_3.index t (1 : Fin 2) * 64 + 1 * (y 1).val = (y 1).val; rw [e1]; omega

/-- The three rows are staged whole. -/
theorem tile4_read (c : Dev nD) (t : Fin cfg0.N) : (iblk0 V c 4 t : S1x64.Idx → EReal) = V c main_v22 := by
  obtain ⟨-, -, -, -, -, -, -, -, -, -, e0, e1, -⟩ := index_facts t
  funext y
  show V c main_v22 (((cfg0.win 4).blk t).view.emb y) = _
  refine congrArg (V c main_v22) (funext fun a => Fin.ext ?_)
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

theorem tile5_read (c : Dev nD) (t : Fin cfg0.N) : (iblk0 V c 5 t : S1x64.Idx → EReal) = V c main_v23 := by
  obtain ⟨-, -, -, -, -, -, -, -, -, -, -, -, e0, e1, -⟩ := index_facts t
  funext y
  show V c main_v23 (((cfg0.win 5).blk t).view.emb y) = _
  refine congrArg (V c main_v23) (funext fun a => Fin.ext ?_)
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

theorem tile6_read (c : Dev nD) (t : Fin cfg0.N) : (iblk0 V c 6 t : S1x64.Idx → EReal) = V c main_v24 := by
  obtain ⟨-, -, -, -, -, -, -, -, -, -, -, -, -, -, e0, e1⟩ := index_facts t
  funext y
  show V c main_v24 (((cfg0.win 6).blk t).view.emb y) = _
  refine congrArg (V c main_v24) (funext fun a => Fin.ext ?_)
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

/-- Where entry (p, q) of step t's output block lands in the array. -/
theorem out_emb (t : Fin cfg0.N) (p : Fin 5000) (q : Fin 64) :
    ((cfg0.win 7).blk t).view.emb (ix2 p q) = (ix2 (rowOf t p) q : S100000x64.Idx) := by
  obtain ⟨e0, e1, -⟩ := index_facts t
  refine funext fun a => Fin.ext ?_
  match a with
  | ⟨0, _⟩ => show win0_7.index t (0 : Fin 2) * 5000 + 1 * p.val = t.val * 5000 + p.val; rw [e0]; omega
  | ⟨1, _⟩ => show win0_7.index t (1 : Fin 2) * 64 + 1 * q.val = q.val; rw [e1]; omega

/-- WHAT STEP t WRITES BACK is block t of the whole-array layer. -/
theorem flushed_eq (c : Dev nD) (t : Fin cfg0.N) :
    (dat0 V c).flushed 7 t = ((cfg0.win 7).blk t).view.read (Elt Ideal) (whole V c) := by
  show (cfg0.win 7).cut (grid0.coords t) ((dat0 V c).after 7 t) = _
  rw [after0_7]
  refine funext fun (y : S5000x64.Idx) => ?_
  obtain ⟨p, q, rfl⟩ : ∃ (p : Fin 5000) (q : Fin 64), y = ix2 p q := ⟨y 0, y 1, eq_ix2 y⟩
  show out0_7 (iblk0 V c 0 t) (iblk0 V c 1 t) (iblk0 V c 2 t) (iblk0 V c 3 t) (iblk0 V c 4 t) (iblk0 V c 5 t) (iblk0 V c 6 t) (ix2 p q)
    = whole V c (((cfg0.win 7).blk t).view.emb (ix2 p q))
  rw [out_emb]
  refine (Tile0.out_apply _ _ _ _ _ _ _ p q).trans ?_
  unfold whole
  refine Sage.layer_of_rows _ _ _ _ _ _ _ _ _ _ _ _ _ _ _ _ _ (rowOf t p) p q
    (fun k => tile0_read V c t p k) (fun k => tile1_read V c t p k) (tile2_read V c t) (tile3_read V c t) ?_ ?_ ?_
  · rw [tile4_read]
  · rw [tile5_read]
  · rw [tile6_read]

/-- An index of the array is in step t's block iff each coordinate is in the block's range on its axis. -/
theorem mem_block (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v25).slice (win0_7.rect t)).set ↔ _
  rw [View.set_slice_whole, Rect.mem_set_unit]
  exact Iff.rfl

/-- Every row of the array is in the block of the step its number divided by 5000 names. -/
theorem covered (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have e : cfg0.N = 20 := N_0
  let t : Fin cfg0.N := ⟨(i 0).val / 5000, by omega⟩
  obtain ⟨e0, e1, -⟩ := index_facts t
  have ht : t.val = (i 0).val / 5000 := rfl
  refine ⟨t, flush0_7 t, ?_⟩
  rw [mem_block]
  intro a
  match a with
  | ⟨0, _⟩ => show win0_7.index t (0 : Fin 2) * 5000 ≤ (i 0).val ∧ (i 0).val < win0_7.index t (0 : Fin 2) * 5000 + 5000; rw [e0, ht]; omega
  | ⟨1, _⟩ => show win0_7.index t (1 : Fin 2) * 64 ≤ (i 1).val ∧ (i 1).val < win0_7.index t (1 : Fin 2) * 64 + 64; rw [e1]; omega

/-- THE ARRAY after the grid: the layer of the arrays the region was entered with. -/
theorem final (c : Dev nD) : (dat0 V c).arrAt 7 cfg0.N = whole V c :=
  (dat0 V c).arrAt_eq_of_cover 7 (whole V c) (fun t _ => flushed_eq V c t) (covered)

end Cert.KernelIdeal.Arrays0

end
-- ==== Proof.KernelTile1.lean ====
/-
  What one tile of grid step of layer 1 leaves in its output block, entry by entry.

  The body multiplies the tile's rows of node features and of neighbour means by the two weight matrices (the roundings to a
  narrower float format on the way in are the identity on exact values), adds the bias row, takes each row's mean as a
  lane sum divided by the row length, centres the row, takes the mean of the squares, multiplies by the reciprocal square
  root of that plus the small constant, scales, shifts and clamps at zero. Read at (p, q) that is the layer formula of row
  p of the two tiles: each matrix product is a sum over the contracted coordinate, each lane sum a finite sum over the
  row, every stretched row or column its own entry.
-/
import proofs.«170184_j14783277433239_1_alg».proof.Proof.Gen.KernelIdeal.Frame
import proofs.«170184_j14783277433239_1_alg».proof.Proof.DenseSpec
import proofs.«170184_j14783277433239_1_alg».proof.Proof.LibTileOps
import proofs.«170184_j14783277433239_1_alg».proof.Proof.LibColForm
import proofs.«170184_j14783277433239_1_alg».proof.Proof.LibLaneSum
import Idealize.ShloMosaic.PureOps.Ideal.Laws
import Idealize.ShloMosaic.Lib.Pipeline.Value

noncomputable section

open scoped BigOperators

namespace Cert.KernelIdeal.Tile1

open Cert.KernelIdeal Cert.KernelIdeal.Gen Idealize.ShloMosaic Idealize.ShloMosaic.ValueIdx

theorem offsets_zero : (![0, 0] : Fin 2 → Nat) = fun _ => 0 := funext fun a => by fin_cases a <;> rfl

/-- The affine stage over the tile: the two products into zero tiles, added, plus the bias row stretched over the rows. -/
def affineT (x0 x1 : Vec Ideal S10000x64 .f32) (x2 x3 : Vec Ideal S64x32 .f32) (x4 : Vec Ideal S1x32 .f32) : FVec Ideal S10000x32 .f32 :=
  addf (addf (matmul dot_S10000x64_S64x32_S10000x32_1_0_0_1_n_n none (truncf .bf16 (shapeCast S10000x64 x0 shapeCasts_S10000x64_S10000x64) bitsLt_bf16_f32) (truncf .bf16 x2 bitsLt_bf16_f32) (constant S10000x32 .f32 0x00000000#32))
      (matmul dot_S10000x64_S64x32_S10000x32_1_0_0_1_n_n none (truncf .bf16 (shapeCast S10000x64 x1 shapeCasts_S10000x64_S10000x64) bitsLt_bf16_f32) (truncf .bf16 x3 bitsLt_bf16_f32) (constant S10000x32 .f32 0x00000000#32)))
    (broadcastTo S10000x32 (shapeCast S1x32 x4 shapeCasts_S1x32_S1x32) broadcasts_S1x32_S10000x32)

/-- Each row's mean, as a column: the lane sum recast as a column, divided by the row length. -/
def meanT (v : FVec Ideal S10000x32 .f32) : FVec Ideal S10000x1 .f32 :=
  divf (shapeCast S10000x1 (multiReduction .add [1] S10000 v 0x00000000#32 reduces_S10000x32_S10000 (.inl rfl) rfl) shapeCasts_S10000_S10000x1)
    (broadcast S10000x1 (Scalar.ofBits .f32 0x42000000#32))

/-- The rows centred: each entry minus its row's mean. -/
def centredT (v : FVec Ideal S10000x32 .f32) : FVec Ideal S10000x32 .f32 :=
  subf v (broadcastTo S10000x32 (meanT v) broadcasts_S10000x1_S10000x32)

/-- The whole payload as the composition of the stages. -/
theorem payload_eq (x0 x1 : Vec Ideal S10000x64 .f32) (x2 x3 : Vec Ideal S64x32 .f32) (x4 x5 x6 : Vec Ideal S1x32 .f32) :
    k1_pay1 (k1_pay2 x0 x1 x2 x3 x4 x5) x6
      = maximumf (addf (mulf (mulf (centredT (affineT x0 x1 x2 x3 x4))
            (broadcastTo S10000x32 (rsqrt (addf (meanT (mulf (centredT (affineT x0 x1 x2 x3 x4)) (centredT (affineT x0 x1 x2 x3 x4))))
              (broadcast S10000x1 (Scalar.ofBits .f32 0x3727C5AC#32)))) broadcasts_S10000x1_S10000x32))
            (broadcastTo S10000x32 (shapeCast S1x32 x5 shapeCasts_S1x32_S1x32) broadcasts_S1x32_S10000x32))
          (broadcastTo S10000x32 (shapeCast S1x32 x6 shapeCasts_S1x32_S1x32) broadcasts_S1x32_S10000x32))
        (broadcast S10000x32 (Scalar.ofBits .f32 0x00000000#32)) := rfl

/-- A bias-like row stretched over the tile's rows, read at (p, j): the row's entry j. -/
theorem row_apply (x : Vec Ideal S1x32 .f32) (p : Fin 10000) (j : Fin 32) :
    broadcastTo S10000x32 (shapeCast S1x32 x shapeCasts_S1x32_S1x32) broadcasts_S1x32_S10000x32 (ix2 p j) = x (ix2 (0 : Fin 1) j) := by
  rw [shapeCast_self]
  exact TileOps.broadcastRow_apply x broadcasts_S1x32_S10000x32 p j

/-- The affine stage at (p, j): the layer's affine formula of row p of the two tiles. -/
theorem affineT_apply (x0 x1 : Vec Ideal S10000x64 .f32) (x2 x3 : Vec Ideal S64x32 .f32) (x4 : Vec Ideal S1x32 .f32)
    (p : Fin 10000) (j : Fin 32) :
    affineT x0 x1 x2 x3 x4 (ix2 p j)
      = Sage.affine (fun k => x0 (ix2 p k)) (fun k => x1 (ix2 p k)) (fun k j => x2 (ix2 k j)) (fun k j => x3 (ix2 k j))
          (fun j => x4 (ix2 (0 : Fin 1) j)) j := by
  unfold affineT Sage.affine
  rw [shapeCast_self x0, shapeCast_self x1]
  show _ + _ + _ = _
  refine congrArg₂ (· + ·) (congrArg₂ (· + ·) ?_ ?_) ?_
  · exact TileOps.matmul_zero_apply dot_S10000x64_S64x32_S10000x32_1_0_0_1_n_n.wf none (truncf .bf16 x0 bitsLt_bf16_f32) (truncf .bf16 x2 bitsLt_bf16_f32) p j
  · exact TileOps.matmul_zero_apply dot_S10000x64_S64x32_S10000x32_1_0_0_1_n_n.wf none (truncf .bf16 x1 bitsLt_bf16_f32) (truncf .bf16 x3 bitsLt_bf16_f32) p j
  · exact row_apply x4 p j

/-- A row's mean at (p, 0): the mean of the row's entries. -/
theorem meanT_apply (v : FVec Ideal S10000x32 .f32) (p : Fin 10000) :
    meanT v (ix2 p (0 : Fin 1)) = Sage.mean (fun j => v (ix2 p j)) (Ideal.ofBits .f32 0x42000000#32) := by
  unfold meanT Sage.mean
  show Ideal.div _ _ = _
  refine congrArg₂ Ideal.div ?_ rfl
  refine (ColForm.col_of_reshape _ shapeCasts_S10000_S10000x1 p).trans ?_
  exact LaneSum.laneSum_apply v reduces_S10000x32_S10000 _ _ p

/-- A column stretched over the tile's columns, read at (p, q): the column's entry p. -/
theorem col_apply (x : FVec Ideal S10000x1 .f32) (p : Fin 10000) (q : Fin 32) :
    broadcastTo S10000x32 x broadcasts_S10000x1_S10000x32 (ix2 p q) = x (ix2 p (0 : Fin 1)) :=
  ColForm.broadcastCol_apply x broadcasts_S10000x1_S10000x32 p q

/-- The centred stage at (p, j). -/
theorem centredT_apply (v : FVec Ideal S10000x32 .f32) (p : Fin 10000) (j : Fin 32) :
    centredT v (ix2 p j) = v (ix2 p j) - Sage.mean (fun j => v (ix2 p j)) (Ideal.ofBits .f32 0x42000000#32) := by
  unfold centredT
  show _ - _ = _
  rw [col_apply, meanT_apply]

/-- WHAT THE BODY STORES, read at (p, q): the layer formula over the tile's own rows. -/
theorem out_apply (x0 x1 : Vec Ideal S10000x64 .f32) (x2 x3 : Vec Ideal S64x32 .f32) (x4 x5 x6 : Vec Ideal S1x32 .f32)
    (p : Fin 10000) (q : Fin 32) :
    out1_7 x0 x1 x2 x3 x4 x5 x6 (ix2 p q)
      = Sage.layer x0 x1 x2 x3 (fun j => x4 (ix2 (0 : Fin 1) j)) (fun j => x5 (ix2 (0 : Fin 1) j)) (fun j => x6 (ix2 (0 : Fin 1) j))
          (Ideal.ofBits .f32 0x42000000#32) (Ideal.ofBits .f32 0x3727C5AC#32) (Ideal.ofBits .f32 0x00000000#32) (ix2 p q) := by
  unfold out1_7
  rw [View.canon_unit_zero offsets_zero]
  simp only [View.ld_unit_zero (S := S10000x64) offsets_zero, View.ld_unit_zero (S := S64x32) offsets_zero,
    View.ld_unit_zero (S := S1x32) offsets_zero]
  rw [payload_eq, Sage.layer_apply]
  unfold Sage.normRelu
  show max (_ * _ * _ + _) _ = _
  rw [centredT_apply, col_apply, row_apply, row_apply]
  show max ((_ - _) * Ideal.rsqrt (_ + _) * _ + _) _ = _
  rw [meanT_apply]
  have hz : ∀ j : Fin 32, affineT x0 x1 x2 x3 x4 (ix2 p j)
      = Sage.affine (fun k => x0 (ix2 p k)) (fun k => x1 (ix2 p k)) (fun k j => x2 (ix2 k j)) (fun k j => x3 (ix2 k j))
          (fun j => x4 (ix2 (0 : Fin 1) j)) j := fun j => affineT_apply x0 x1 x2 x3 x4 p j
  have hsq : (fun j : Fin 32 => mulf (centredT (affineT x0 x1 x2 x3 x4)) (centredT (affineT x0 x1 x2 x3 x4)) (ix2 p j))
      = fun j => (affineT x0 x1 x2 x3 x4 (ix2 p j) - Sage.mean (fun j => affineT x0 x1 x2 x3 x4 (ix2 p j)) (Ideal.ofBits .f32 0x42000000#32))
          * (affineT x0 x1 x2 x3 x4 (ix2 p j) - Sage.mean (fun j => affineT x0 x1 x2 x3 x4 (ix2 p j)) (Ideal.ofBits .f32 0x42000000#32)) :=
    funext fun j => by show _ * _ = _; rw [centredT_apply]
  rw [hsq]
  simp only [hz]
  rfl

end Cert.KernelIdeal.Tile1

end
-- ==== Proof.KernelArrays1.lean ====
/-
  The array layer 1's grid leaves behind, as one function of the arrays it was entered with.

  Grid step t stages rows t·10000 … t·10000 + 9999 of the node features and of the neighbour means, the whole of both weight
  matrices and of the three rows, and writes back rows t·10000 … of the result. What it writes at (p, q) of its block is
  the layer formula of row p of the two staged tiles, and row p of a tile is row t·10000 + p of its array; so the block
  written back is the block of the whole-array layer function, and the 10 blocks tile the 100000 rows.
-/
import proofs.«170184_j14783277433239_1_alg».proof.Proof.KernelTile1

set_option maxRecDepth 16384

noncomputable section

open scoped BigOperators

namespace Cert.KernelIdeal.Arrays1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The layer over whole arrays: what window 7's array holds after the grid, from the arrays the region is entered with. -/
def whole (c : Dev nD) : S100000x32.Idx → EReal :=
  Sage.layer (N := 100000) (K := 64) (M := 32) (V c main_v25) (V c main_v37) (V c main_arg7) (V c main_arg8)
    (fun j => V c main_v38 (ix2 (0 : Fin 1) j)) (fun j => V c main_v39 (ix2 (0 : Fin 1) j)) (fun j => V c main_v40 (ix2 (0 : Fin 1) j))
    (Ideal.ofBits .f32 0x42000000#32) (Ideal.ofBits .f32 0x3727C5AC#32) (Ideal.ofBits .f32 0x00000000#32)

/-- The printed index maps over the grid: the two row-tiled inputs and the output move together, one block of rows per
    step, and every other block index is zero. -/
theorem index_facts : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem grid_points : grid1.N = 10 := N_1

/-- Row p of the tile staged at step t is row t·10000 + p of the array. -/
def rowOf (t : Fin cfg1.N) (p : Fin 10000) : Fin 100000 :=
  ⟨t.val * 10000 + p.val, by have := t.isLt; have e : cfg1.N = 10 := N_1; have := p.isLt; omega⟩

/-- A row-tiled input's staged tile read at (p, k): the array at (t·10000 + p, k). -/
theorem tile0_read (c : Dev nD) (t : Fin cfg1.N) (p : Fin 10000) (k : Fin 64) :
    iblk1 V c 0 t (ix2 p k) = V c main_v25 (ix2 (rowOf t p) k) := by
  obtain ⟨-, -, e0, e1, -⟩ := index_facts t
  show V c main_v25 (((cfg1.win 0).blk t).view.emb (ix2 p k)) = _
  refine congrArg (V c main_v25) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

theorem tile1_read (c : Dev nD) (t : Fin cfg1.N) (p : Fin 10000) (k : Fin 64) :
    iblk1 V c 1 t (ix2 p k) = V c main_v37 (ix2 (rowOf t p) k) := by
  obtain ⟨-, -, -, -, e0, e1, -⟩ := index_facts t
  show V c main_v37 (((cfg1.win 1).blk t).view.emb (ix2 p k)) = _
  refine congrArg (V c main_v37) (funext fun a => Fin.ext ?_)
  match a with
  | ⟨0, _⟩ => show win1_1.index t (0 : Fin 2) * 10000 + 1 * p.val = t.val * 10000 + p.val; rw [e0]; omega
  | ⟨1, _⟩ => show win1_1.index t (1 : Fin 2) * 64 + 1 * k.val = k.val; rw [e1]; omega

/-- A weight matrix is staged whole. -/
theorem tile2_read (c : Dev nD) (t : Fin cfg1.N) : (iblk1 V c 2 t : S64x32.Idx → EReal) = V c main_arg7 := by
  obtain ⟨-, -, -, -, -, -, e0, e1, -⟩ := index_facts t
  funext y
  show V c main_arg7 (((cfg1.win 2).blk t).view.emb y) = _
  refine congrArg (V c main_arg7) (funext fun a => Fin.ext ?_)
  match a with
  | ⟨0, _⟩ => show win1_2.index t (0 : Fin 2) * 64 + 1 * (y 0).val = (y 0).val; rw [e0]; omega
  | ⟨1, _⟩ => show win1_2.index t (1 : Fin 2) * 32 + 1 * (y 1).val = (y 1).val; rw [e1]; omega

theorem tile3_read (c : Dev nD) (t : Fin cfg1.N) : (iblk1 V c 3 t : S64x32.Idx → EReal) = V c main_arg8 := by
  obtain ⟨-, -, -, -, -, -, -, -, e0, e1, -⟩ := index_facts t
  funext y
  show V c main_arg8 (((cfg1.win 3).blk t).view.emb y) = _
  refine congrArg (V c main_arg8) (funext fun a => Fin.ext ?_)
  match a with
  | ⟨0, _⟩ => show win1_3.index t (0 : Fin 2) * 64 + 1 * (y 0).val = (y 0).val; rw [e0]; omega
  | ⟨1, _⟩ => show win1_3.index t (1 : Fin 2) * 32 + 1 * (y 1).val = (y 1).val; rw [e1]; omega

/-- The three rows are staged whole. -/
theorem tile4_read (c : Dev nD) (t : Fin cfg1.N) : (iblk1 V c 4 t : S1x32.Idx → EReal) = V c main_v38 := by
  obtain ⟨-, -, -, -, -, -, -, -, -, -, e0, e1, -⟩ := index_facts t
  funext y
  show V c main_v38 (((cfg1.win 4).blk t).view.emb y) = _
  refine congrArg (V c main_v38) (funext fun a => Fin.ext ?_)
  match a with
  | ⟨0, _⟩ => show win1_4.index t (0 : Fin 2) * 1 + 1 * (y 0).val = (y 0).val; rw [e0]; omega
  | ⟨1, _⟩ => show win1_4.index t (1 : Fin 2) * 32 + 1 * (y 1).val = (y 1).val; rw [e1]; omega

theorem tile5_read (c : Dev nD) (t : Fin cfg1.N) : (iblk1 V c 5 t : S1x32.Idx → EReal) = V c main_v39 := by
  obtain ⟨-, -, -, -, -, -, -, -, -, -, -, -, e0, e1, -⟩ := index_facts t
  funext y
  show V c main_v39 (((cfg1.win 5).blk t).view.emb y) = _
  refine congrArg (V c main_v39) (funext fun a => Fin.ext ?_)
  match a with
  | ⟨0, _⟩ => show win1_5.index t (0 : Fin 2) * 1 + 1 * (y 0).val = (y 0).val; rw [e0]; omega
  | ⟨1, _⟩ => show win1_5.index t (1 : Fin 2) * 32 + 1 * (y 1).val = (y 1).val; rw [e1]; omega

theorem tile6_read (c : Dev nD) (t : Fin cfg1.N) : (iblk1 V c 6 t : S1x32.Idx → EReal) = V c main_v40 := by
  obtain ⟨-, -, -, -, -, -, -, -, -, -, -, -, -, -, e0, e1⟩ := index_facts t
  funext y
  show V c main_v40 (((cfg1.win 6).blk t).view.emb y) = _
  refine congrArg (V c main_v40) (funext fun a => Fin.ext ?_)
  match a with
  | ⟨0, _⟩ => show win1_6.index t (0 : Fin 2) * 1 + 1 * (y 0).val = (y 0).val; rw [e0]; omega
  | ⟨1, _⟩ => show win1_6.index t (1 : Fin 2) * 32 + 1 * (y 1).val = (y 1).val; rw [e1]; omega

/-- Where entry (p, q) of step t's output block lands in the array. -/
theorem out_emb (t : Fin cfg1.N) (p : Fin 10000) (q : Fin 32) :
    ((cfg1.win 7).blk t).view.emb (ix2 p q) = (ix2 (rowOf t p) q : S100000x32.Idx) := by
  obtain ⟨e0, e1, -⟩ := index_facts t
  refine funext fun a => Fin.ext ?_
  match a with
  | ⟨0, _⟩ => show win1_7.index t (0 : Fin 2) * 10000 + 1 * p.val = t.val * 10000 + p.val; rw [e0]; omega
  | ⟨1, _⟩ => show win1_7.index t (1 : Fin 2) * 32 + 1 * q.val = q.val; rw [e1]; omega

/-- WHAT STEP t WRITES BACK is block t of the whole-array layer. -/
theorem flushed_eq (c : Dev nD) (t : Fin cfg1.N) :
    (dat1 V c).flushed 7 t = ((cfg1.win 7).blk t).view.read (Elt Ideal) (whole V c) := by
  show (cfg1.win 7).cut (grid1.coords t) ((dat1 V c).after 7 t) = _
  rw [after1_7]
  refine funext fun (y : S10000x32.Idx) => ?_
  obtain ⟨p, q, rfl⟩ : ∃ (p : Fin 10000) (q : Fin 32), y = ix2 p q := ⟨y 0, y 1, eq_ix2 y⟩
  show out1_7 (iblk1 V c 0 t) (iblk1 V c 1 t) (iblk1 V c 2 t) (iblk1 V c 3 t) (iblk1 V c 4 t) (iblk1 V c 5 t) (iblk1 V c 6 t) (ix2 p q)
    = whole V c (((cfg1.win 7).blk t).view.emb (ix2 p q))
  rw [out_emb]
  refine (Tile1.out_apply _ _ _ _ _ _ _ p q).trans ?_
  unfold whole
  refine Sage.layer_of_rows _ _ _ _ _ _ _ _ _ _ _ _ _ _ _ _ _ (rowOf t p) p q
    (fun k => tile0_read V c t p k) (fun k => tile1_read V c t p k) (tile2_read V c t) (tile3_read V c t) ?_ ?_ ?_
  · rw [tile4_read]
  · rw [tile5_read]
  · rw [tile6_read]

/-- An index of the array is in step t's block iff each coordinate is in the block's range on its axis. -/
theorem mem_block (t : Fin cfg1.N) (i : S100000x32.Idx) :
    i ∈ ((cfg1.win 7).blk t).view.set ↔ ∀ a : Fin 2, win1_7.index t a * S10000x32.size a ≤ (i a).val ∧ (i a).val < win1_7.index t a * S10000x32.size a + S10000x32.size a := by
  show i ∈ ((View.whole main_v41).slice (win1_7.rect t)).set ↔ _
  rw [View.set_slice_whole, Rect.mem_set_unit]
  exact Iff.rfl

/-- Every row of the array is in the block of the step its number divided by 10000 names. -/
theorem covered (i : S100000x32.Idx) : ∃ t : Fin cfg1.N, (cfg1.win 7).flush t = true ∧ i ∈ ((cfg1.win 7).blk t).view.set := by
  have hi0 : (i 0).val < 100000 := (i 0).isLt
  have hi1 : (i 1).val < 32 := (i 1).isLt
  have e : cfg1.N = 10 := N_1
  let t : Fin cfg1.N := ⟨(i 0).val / 10000, by omega⟩
  obtain ⟨e0, e1, -⟩ := index_facts t
  have ht : t.val = (i 0).val / 10000 := rfl
  refine ⟨t, flush1_7 t, ?_⟩
  rw [mem_block]
  intro a
  match a with
  | ⟨0, _⟩ => show win1_7.index t (0 : Fin 2) * 10000 ≤ (i 0).val ∧ (i 0).val < win1_7.index t (0 : Fin 2) * 10000 + 10000; rw [e0, ht]; omega
  | ⟨1, _⟩ => show win1_7.index t (1 : Fin 2) * 32 ≤ (i 1).val ∧ (i 1).val < win1_7.index t (1 : Fin 2) * 32 + 32; rw [e1]; omega

/-- THE ARRAY after the grid: the layer of the arrays the region was entered with. -/
theorem final (c : Dev nD) : (dat1 V c).arrAt 7 cfg1.N = whole V c :=
  (dat1 V c).arrAt_eq_of_cover 7 (whole V c) (fun t _ => flushed_eq V c t) (covered)

end Cert.KernelIdeal.Arrays1

end
-- ==== Proof.HostAgg.lean ====
/-
  The neighbour mean the host computes before each layer, as a function of the node features and the edge list.

  Row 0 of the edge list holds each edge's source node, row 1 its destination. A negative source index is moved up by
  the node count; the features' rows are gathered at the sources, and added into a zero array at the destinations. The
  count of edges arriving at a node — ones added at the destinations — is raised to at least one, and every row of sums
  is divided by its node's count. Both programs spell this with the same operations; here they are named once, in the
  kernel program's vocabulary, for the arrays of width 128 (first layer) and 64 (second layer).
-/
import proofs.«170184_j14783277433239_1_alg».proof.Proof.Gen.KernelIdeal

noncomputable section

namespace Cert.KernelIdeal.HostAgg

open Cert.KernelIdeal Idealize.ShloMosaic
open Cert.KernelIdeal.Facts₀ Cert.KernelIdeal.Facts

variable {F : FTy → Type} [FloatOps F]

/-- The edges' source nodes: row 0 of the edge list as a vector. -/
def sources (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The edges' destination nodes: row 1 of the edge list as a vector. -/
def dests (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The rows to gather, as a column of start indices: a negative source moved up by the node count. -/
def gatherAt (e : (⟨S2x1600000, .i32⟩ : BufTy).Contents (Elt F)) : (⟨S1600000x1, .i32⟩ : BufTy).Contents (Elt F) :=
  broadcastInDim S1600000x1 ![0] bcast_S1600000_S1600000x1_0
    (select (cmpi .slt (sources (F := F) e) (broadcastInDim S1600000 ![] bcast_S_S1600000 (constantI S_ 32 0#32)))
      (addi (sources (F := F) e) (broadcastInDim S1600000 ![] bcast_S_S1600000 (constantI S_ 32 100000#32)))
      (sources (F := F) e))

/-- Where to add, as a column of indices: the destinations. -/
def scatterAt (e : (⟨S2x1600000, .i32⟩ : BufTy).Contents (Elt F)) : (⟨S1600000x1, .i32⟩ : BufTy).Contents (Elt F) :=
  broadcastInDim S1600000x1 ![0] bcast_S1600000_S1600000x1_0 (dests (F := F) e)

/-- Each node's count of arriving edges, at least one, as a column. -/
def counts (e : (⟨S2x1600000, .i32⟩ : BufTy).Contents (Elt F)) : (⟨S100000x1, .f32⟩ : BufTy).Contents (Elt F) :=
  broadcastInDim S100000x1 ![0] bcast_S100000_S100000x1_0
    (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (scatterAt (F := F) e)
        (broadcastInDim S1600000 ![] bcast_S_S1600000 (constant S_ .f32 0x3F800000#32))))

/-- The neighbour means of an array of width 128. -/
def aggregate128 (x : (⟨S100000x128, .f32⟩ : BufTy).Contents (Elt F)) (e : (⟨S2x1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (scatterAt (F := F) e)
      (Host.gather gather_S100000x128_S1600000x1_S1600000x128_1_0_n_n_0_1_1128 x (gatherAt (F := F) e)))
    (broadcastInDim S100000x128 ![0, 1] bcast_S100000x1_S100000x128_0_1 (counts (F := F) e))

/-- The neighbour means of an array of width 64. -/
def aggregate64 (h : (⟨S100000x64, .f32⟩ : BufTy).Contents (Elt F)) (e : (⟨S2x1600000, .i32⟩ : BufTy).Contents (Elt F)) :
    (⟨S100000x64, .f32⟩ : BufTy).Contents (Elt F) :=
  Host.divf
    (Host.scatterAdd scatter_S100000x64_S1600000x1_S1600000x64_1_0_0_1
      (broadcastInDim S100000x64 ![] bcast_S_S100000x64 (constant S_ .f32 0x00000000#32))
      (scatterAt (F := F) e)
      (Host.gather gather_S100000x64_S1600000x1_S1600000x64_1_0_n_n_0_1_164 h (gatherAt (F := F) e)))
    (broadcastInDim S100000x64 ![0, 1] bcast_S100000x1_S100000x64_0_1 (counts (F := F) e))

end Cert.KernelIdeal.HostAgg

end
-- ==== Proof.LibRowForm.lean ====
/-
  A vector recast as a one-row matrix, read at an index.
-/
import Idealize.ShloMosaic.Lib.ValueIdx
import Idealize.ShloMosaic.Lib.Pipeline.Value

namespace Cert.RowForm

open Idealize.ShloMosaic

/-- A vector of length `n` recast as a `1 × n` matrix, read at row `0` and column `j`, is the vector at `j`. -/
theorem row_of_reshape {α : Type} {n : Nat} (v : (⟨1, ![n]⟩ : Shape).Idx → α)
    (h : (⟨1, ![n]⟩ : Shape).ShapeCasts ⟨2, ![1, n]⟩) (j : Fin n) :
    shapeCast (⟨2, ![1, n]⟩ : Shape) v h (ValueIdx.ix2 (0 : Fin 1) j) = v (ValueIdx.ix1 j) := by
  rw [shapeCast_addUnit_apply ![n] v h]
  congr 1
  funext a
  match a with
  | ⟨0, _⟩ => rfl

end Cert.RowForm
-- ==== Proof.KernelValue.lean ====
/-
  The kernel program's result as a function of its arguments.

  Following the buffer contents through @main, one stretch of host operations at a time: before the first grid the host
  has formed the neighbour means of the node features and recast the three rows; the first grid leaves the first layer
  of those; the host then forms the neighbour means of that result (with the same edge counts) and recasts the second
  layer's rows; the second grid leaves the second layer. No host operation writes an argument, so each argument is read
  at its launch contents throughout. Each stretch is read from whatever the buffers held before it, as a variable; the
  stretches are then joined by rewriting.
-/
import proofs.«170184_j14783277433239_1_alg».proof.Proof.KernelRun
import proofs.«170184_j14783277433239_1_alg».proof.Proof.KernelArrays0
import proofs.«170184_j14783277433239_1_alg».proof.Proof.KernelArrays1
import proofs.«170184_j14783277433239_1_alg».proof.Proof.HostAgg
import proofs.«170184_j14783277433239_1_alg».proof.Proof.LibRowForm
import Idealize.ShloMosaic.Lib.StableHlo.Run

set_option maxRecDepth 16384

noncomputable section

namespace Cert.KernelIdeal.Value

open Cert.KernelIdeal Cert.KernelIdeal.Gen Cert.KernelIdeal.HostAgg
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## The launch memory at the arguments -/

theorem launch_arg0 (c : Dev nD) : W0 m ρ c (Proc.devRef .tc main_arg0) = m ((c : Thread nD τ).loc main_arg0) := rfl
theorem launch_arg1 (c : Dev nD) : W0 m ρ c (Proc.devRef .tc main_arg1) = m ((c : Thread nD τ).loc main_arg1) := rfl
theorem launch_arg2 (c : Dev nD) : W0 m ρ c (Proc.devRef .tc main_arg2) = m ((c : Thread nD τ).loc main_arg2) := rfl
theorem launch_arg3 (c : Dev nD) : W0 m ρ c (Proc.devRef .tc main_arg3) = m ((c : Thread nD τ).loc main_arg3) := rfl
theorem launch_arg4 (c : Dev nD) : W0 m ρ c (Proc.devRef .tc main_arg4) = m ((c : Thread nD τ).loc main_arg4) := rfl
theorem launch_arg5 (c : Dev nD) : W0 m ρ c (Proc.devRef .tc main_arg5) = m ((c : Thread nD τ).loc main_arg5) := rfl
theorem launch_arg6 (c : Dev nD) : W0 m ρ c (Proc.devRef .tc main_arg6) = m ((c : Thread nD τ).loc main_arg6) := rfl
theorem launch_arg7 (c : Dev nD) : W0 m ρ c (Proc.devRef .tc main_arg7) = m ((c : Thread nD τ).loc main_arg7) := rfl
theorem launch_arg8 (c : Dev nD) : W0 m ρ c (Proc.devRef .tc main_arg8) = m ((c : Thread nD τ).loc main_arg8) := rfl
theorem launch_arg9 (c : Dev nD) : W0 m ρ c (Proc.devRef .tc main_arg9) = m ((c : Thread nD τ).loc main_arg9) := rfl
theorem launch_arg10 (c : Dev nD) : W0 m ρ c (Proc.devRef .tc main_arg10) = m ((c : Thread nD τ).loc main_arg10) := rfl
theorem launch_arg11 (c : Dev nD) : W0 m ρ c (Proc.devRef .tc main_arg11) = m ((c : Thread nD τ).loc main_arg11) := rfl

/-! ## First stretch: the edge list's two rows, the raw counts, the constant one -/

set_option maxHeartbeats 2000000 in
theorem s0_counts_raw (c : Dev nD) : W1 m ρ c (Proc.devRef .tc main_v7) = Host.scatterAdd (F := Ideal) scatter_S100000_S1600000x1_S1600000_n_0_0_1 (broadcastInDim S100000 ![] bcast_S_S100000 (constant S_ .f32 0x00000000#32)) (broadcastInDim S1600000x1 ![0] bcast_S1600000_S1600000x1_0 (dests (F := Ideal) (W0 m ρ c (Proc.devRef .tc main_arg1)))) (broadcastInDim S1600000 ![] bcast_S_S1600000 (constant S_ .f32 0x3F800000#32)) := by
  show StableHlo.after hostOps0 (W0 m ρ c) (Proc.devRef .tc main_v7) = _
  generalize W0 m ρ c = Wv
  dsimp only [hostOps0]
  after_results_simp <;> rfl

set_option maxHeartbeats 2000000 in
theorem s0_one (c : Dev nD) : W1 m ρ c (Proc.devRef .tc main_cst_1) = constant (F := Ideal) S_ .f32 0x3F800000#32 := by
  show StableHlo.after hostOps0 (W0 m ρ c) (Proc.devRef .tc main_cst_1) = _
  generalize W0 m ρ c = Wv
  dsimp only [hostOps0]
  after_results_simp <;> rfl

set_option maxHeartbeats 2000000 in
theorem s0_sources (c : Dev nD) : W1 m ρ c (Proc.devRef .tc main_v1) = sources (F := Ideal) (W0 m ρ c (Proc.devRef .tc main_arg1)) := by
  show StableHlo.after hostOps0 (W0 m ρ c) (Proc.devRef .tc main_v1) = _
  generalize W0 m ρ c = Wv
  dsimp only [hostOps0]
  after_results_simp <;> rfl

set_option maxHeartbeats 2000000 in
theorem s0_dests (c : Dev nD) : W1 m ρ c (Proc.devRef .tc main_v3) = dests (F := Ideal) (W0 m ρ c (Proc.devRef .tc main_arg1)) := by
  show StableHlo.after hostOps0 (W0 m ρ c) (Proc.devRef .tc main_v3) = _
  generalize W0 m ρ c = Wv
  dsimp only [hostOps0]
  after_results_simp <;> rfl

set_option maxHeartbeats 2000000 in
theorem s0_arg0 (c : Dev nD) : W1 m ρ c (Proc.devRef .tc main_arg0) = (W0 m ρ c (Proc.devRef .tc main_arg0)) := by
  show StableHlo.after hostOps0 (W0 m ρ c) (Proc.devRef .tc main_arg0) = _
  generalize W0 m ρ c = Wv
  dsimp only [hostOps0]
  after_results_simp <;> rfl

set_option maxHeartbeats 2000000 in
theorem s0_arg2 (c : Dev nD) : W1 m ρ c (Proc.devRef .tc main_arg2) = (W0 m ρ c (Proc.devRef .tc main_arg2)) := by
  show StableHlo.after hostOps0 (W0 m ρ c) (Proc.devRef .tc main_arg2) = _
  generalize W0 m ρ c = Wv
  dsimp only [hostOps0]
  after_results_simp <;> rfl

set_option maxHeartbeats 2000000 in
theorem s0_arg3 (c : Dev nD) : W1 m ρ c (Proc.devRef .tc main_arg3) = (W0 m ρ c (Proc.devRef .tc main_arg3)) := by
  show StableHlo.after hostOps0 (W0 m ρ c) (Proc.devRef .tc main_arg3) = _
  generalize W0 m ρ c = Wv
  dsimp only [hostOps0]
  after_results_simp <;> rfl

set_option maxHeartbeats 2000000 in
theorem s0_arg4 (c : Dev nD) : W1 m ρ c (Proc.devRef .tc main_arg4) = (W0 m ρ c (Proc.devRef .tc main_arg4)) := by
  show StableHlo.after hostOps0 (W0 m ρ c) (Proc.devRef .tc main_arg4) = _
  generalize W0 m ρ c = Wv
  dsimp only [hostOps0]
  after_results_simp <;> rfl

set_option maxHeartbeats 2000000 in
theorem s0_arg5 (c : Dev nD) : W1 m ρ c (Proc.devRef .tc main_arg5) = (W0 m ρ c (Proc.devRef .tc main_arg5)) := by
  show StableHlo.after hostOps0 (W0 m ρ c) (Proc.devRef .tc main_arg5) = _
  generalize W0 m ρ c = Wv
  dsimp only [hostOps0]
  after_results_simp <;> rfl

set_option maxHeartbeats 2000000 in
theorem s0_arg6 (c : Dev nD) : W1 m ρ c (Proc.devRef .tc main_arg6) = (W0 m ρ c (Proc.devRef .tc main_arg6)) := by
  show StableHlo.after hostOps0 (W0 m ρ c) (Proc.devRef .tc main_arg6) = _
  generalize W0 m ρ c = Wv
  dsimp only [hostOps0]
  after_results_simp <;> rfl

set_option maxHeartbeats 2000000 in
theorem s0_arg7 (c : Dev nD) : W1 m ρ c (Proc.devRef .tc main_arg7) = (W0 m ρ c (Proc.devRef .tc main_arg7)) := by
  show StableHlo.after hostOps0 (W0 m ρ c) (Proc.devRef .tc main_arg7) = _
  generalize W0 m ρ c = Wv
  dsimp only [hostOps0]
  after_results_simp <;> rfl

set_option maxHeartbeats 2000000 in
theorem s0_arg8 (c : Dev nD) : W1 m ρ c (Proc.devRef .tc main_arg8) = (W0 m ρ c (Proc.devRef .tc main_arg8)) := by
  show StableHlo.after hostOps0 (W0 m ρ c) (Proc.devRef .tc main_arg8) = _
  generalize W0 m ρ c = Wv
  dsimp only [hostOps0]
  after_results_simp <;> rfl

set_option maxHeartbeats 2000000 in
theorem s0_arg9 (c : Dev nD) : W1 m ρ c (Proc.devRef .tc main_arg9) = (W0 m ρ c (Proc.devRef .tc main_arg9)) := by
  show StableHlo.after hostOps0 (W0 m ρ c) (Proc.devRef .tc main_arg9) = _
  generalize W0 m ρ c = Wv
  dsimp only [hostOps0]
  after_results_simp <;> rfl

set_option maxHeartbeats 2000000 in
theorem s0_arg10 (c : Dev nD) : W1 m ρ c (Proc.devRef .tc main_arg10) = (W0 m ρ c (Proc.devRef .tc main_arg10)) := by
  show StableHlo.after hostOps0 (W0 m ρ c) (Proc.devRef .tc main_arg10) = _
  generalize W0 m ρ c = Wv
  dsimp only [hostOps0]
  after_results_simp <;> rfl

set_option maxHeartbeats 2000000 in
theorem s0_arg11 (c : Dev nD) : W1 m ρ c (Proc.devRef .tc main_arg11) = (W0 m ρ c (Proc.devRef .tc main_arg11)) := by
  show StableHlo.after hostOps0 (W0 m ρ c) (Proc.devRef .tc main_arg11) = _
  generalize W0 m ρ c = Wv
  dsimp only [hostOps0]
  after_results_simp <;> rfl

/-! ## Second stretch: the counts raised to at least one -/

set_option maxHeartbeats 2000000 in
theorem s1_clamped (c : Dev nD) : W2 m ρ c (Proc.devRef .tc main_v8) = maximumf (F := Ideal) (φ := .f32) (broadcastInDim S100000 ![] bcast_S_S100000 (id (W1 m ρ c (Proc.devRef .tc main_cst_1) : (⟨S_, .f32⟩ : BufTy).Contents (Elt Ideal)))) (W1 m ρ c (Proc.devRef .tc main_v7) : (⟨S100000, .f32⟩ : BufTy).Contents (Elt Ideal)) := by
  show StableHlo.after hostOps0_1 (W1 m ρ c) (Proc.devRef .tc main_v8) = _
  generalize W1 m ρ c = Wv
  dsimp only [hostOps0_1]
  after_results_simp <;> rfl

set_option maxHeartbeats 2000000 in
theorem s1_sources (c : Dev nD) : W2 m ρ c (Proc.devRef .tc main_v1) = (W1 m ρ c (Proc.devRef .tc main_v1)) := by
  show StableHlo.after hostOps0_1 (W1 m ρ c) (Proc.devRef .tc main_v1) = _
  generalize W1 m ρ c = Wv
  dsimp only [hostOps0_1]
  after_results_simp <;> rfl

set_option maxHeartbeats 2000000 in
theorem s1_dests (c : Dev nD) : W2 m ρ c (Proc.devRef .tc main_v3) = (W1 m ρ c (Proc.devRef .tc main_v3)) := by
  show StableHlo.after hostOps0_1 (W1 m ρ c) (Proc.devRef .tc main_v3) = _
  generalize W1 m ρ c = Wv
  dsimp only [hostOps0_1]
  after_results_simp <;> rfl

set_option maxHeartbeats 2000000 in
theorem s1_arg0 (c : Dev nD) : W2 m ρ c (Proc.devRef .tc main_arg0) = (W1 m ρ c (Proc.devRef .tc main_arg0)) := by
  show StableHlo.after hostOps0_1 (W1 m ρ c) (Proc.devRef .tc main_arg0) = _
  generalize W1 m ρ c = Wv
  dsimp only [hostOps0_1]
  after_results_simp <;> rfl

set_option maxHeartbeats 2000000 in
theorem s1_arg2 (c : Dev nD) : W2 m ρ c (Proc.devRef .tc main_arg2) = (W1 m ρ c (Proc.devRef .tc main_arg2)) := by
  show StableHlo.after hostOps0_1 (W1 m ρ c) (Proc.devRef .tc main_arg2) = _
  generalize W1 m ρ c = Wv
  dsimp only [hostOps0_1]
  after_results_simp <;> rfl

set_option maxHeartbeats 2000000 in
theorem s1_arg3 (c : Dev nD) : W2 m ρ c (Proc.devRef .tc main_arg3) = (W1 m ρ c (Proc.devRef .tc main_arg3)) := by
  show StableHlo.after hostOps0_1 (W1 m ρ c) (Proc.devRef .tc main_arg3) = _
  generalize W1 m ρ c = Wv
  dsimp only [hostOps0_1]
  after_results_simp <;> rfl

set_option maxHeartbeats 2000000 in
theorem s1_arg4 (c : Dev nD) : W2 m ρ c (Proc.devRef .tc main_arg4) = (W1 m ρ c (Proc.devRef .tc main_arg4)) := by
  show StableHlo.after hostOps0_1 (W1 m ρ c) (Proc.devRef .tc main_arg4) = _
  generalize W1 m ρ c = Wv
  dsimp only [hostOps0_1]
  after_results_simp <;> rfl

set_option maxHeartbeats 2000000 in
theorem s1_arg5 (c : Dev nD) : W2 m ρ c (Proc.devRef .tc main_arg5) = (W1 m ρ c (Proc.devRef .tc main_arg5)) := by
  show StableHlo.after hostOps0_1 (W1 m ρ c) (Proc.devRef .tc main_arg5) = _
  generalize W1 m ρ c = Wv
  dsimp only [hostOps0_1]
  after_results_simp <;> rfl

set_option maxHeartbeats 2000000 in
theorem s1_arg6 (c : Dev nD) : W2 m ρ c (Proc.devRef .tc main_arg6) = (W1 m ρ c (Proc.devRef .tc main_arg6)) := by
  show StableHlo.after hostOps0_1 (W1 m ρ c) (Proc.devRef .tc main_arg6) = _
  generalize W1 m ρ c = Wv
  dsimp only [hostOps0_1]
  after_results_simp <;> rfl

set_option maxHeartbeats 2000000 in
theorem s1_arg7 (c : Dev nD) : W2 m ρ c (Proc.devRef .tc main_arg7) = (W1 m ρ c (Proc.devRef .tc main_arg7)) := by
  show StableHlo.after hostOps0_1 (W1 m ρ c) (Proc.devRef .tc main_arg7) = _
  generalize W1 m ρ c = Wv
  dsimp only [hostOps0_1]
  after_results_simp <;> rfl

set_option maxHeartbeats 2000000 in
theorem s1_arg8 (c : Dev nD) : W2 m ρ c (Proc.devRef .tc main_arg8) = (W1 m ρ c (Proc.devRef .tc main_arg8)) := by
  show StableHlo.after hostOps0_1 (W1 m ρ c) (Proc.devRef .tc main_arg8) = _
  generalize W1 m ρ c = Wv
  dsimp only [hostOps0_1]
  after_results_simp <;> rfl

set_option maxHeartbeats 2000000 in
theorem s1_arg9 (c : Dev nD) : W2 m ρ c (Proc.devRef .tc main_arg9) = (W1 m ρ c (Proc.devRef .tc main_arg9)) := by
  show StableHlo.after hostOps0_1 (W1 m ρ c) (Proc.devRef .tc main_arg9) = _
  generalize W1 m ρ c = Wv
  dsimp only [hostOps0_1]
  after_results_simp <;> rfl

set_option maxHeartbeats 2000000 in
theorem s1_arg10 (c : Dev nD) : W2 m ρ c (Proc.devRef .tc main_arg10) = (W1 m ρ c (Proc.devRef .tc main_arg10)) := by
  show StableHlo.after hostOps0_1 (W1 m ρ c) (Proc.devRef .tc main_arg10) = _
  generalize W1 m ρ c = Wv
  dsimp only [hostOps0_1]
  after_results_simp <;> rfl

set_option maxHeartbeats 2000000 in
theorem s1_arg11 (c : Dev nD) : W2 m ρ c (Proc.devRef .tc main_arg11) = (W1 m ρ c (Proc.devRef .tc main_arg11)) := by
  show StableHlo.after hostOps0_1 (W1 m ρ c) (Proc.devRef .tc main_arg11) = _
  generalize W1 m ρ c = Wv
  dsimp only [hostOps0_1]
  after_results_simp <;> rfl

/-! ## Third stretch: the counts as a column, the first neighbour means, the first layer's three rows -/

set_option maxHeartbeats 2000000 in
theorem s2_counts (c : Dev nD) : W3 m ρ c (Proc.devRef .tc main_v9) = broadcastInDim S100000x1 ![0] bcast_S100000_S100000x1_0 (W2 m ρ c (Proc.devRef .tc main_v8)) := by
  show StableHlo.after hostOps0_2 (W2 m ρ c) (Proc.devRef .tc main_v9) = _
  generalize W2 m ρ c = Wv
  dsimp only [hostOps0_2]
  after_results_simp <;> rfl

set_option maxHeartbeats 2000000 in
theorem s2_means (c : Dev nD) : W3 m ρ c (Proc.devRef .tc main_v21) = Host.divf (F := Ideal) (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (W2 m ρ c (Proc.devRef .tc main_v3))) (Host.gather gather_S100000x128_S1600000x1_S1600000x128_1_0_n_n_0_1_1128 (W2 m ρ c (Proc.devRef .tc main_arg0)) (broadcastInDim S1600000x1 ![0] bcast_S1600000_S1600000x1_0 (select (cmpi .slt (W2 m ρ c (Proc.devRef .tc main_v1)) (broadcastInDim S1600000 ![] bcast_S_S1600000 (constantI S_ 32 0#32))) (addi (W2 m ρ c (Proc.devRef .tc main_v1)) (broadcastInDim S1600000 ![] bcast_S_S1600000 (constantI S_ 32 100000#32))) (W2 m ρ c (Proc.devRef .tc main_v1)))))) (broadcastInDim S100000x128 ![0, 1] bcast_S100000x1_S100000x128_0_1 (broadcastInDim S100000x1 ![0] bcast_S100000_S100000x1_0 (W2 m ρ c (Proc.devRef .tc main_v8)))) := by
  show StableHlo.after hostOps0_2 (W2 m ρ c) (Proc.devRef .tc main_v21) = _
  generalize W2 m ρ c = Wv
  dsimp only [hostOps0_2]
  after_results_simp <;> rfl

set_option maxHeartbeats 2000000 in
theorem s2_sources (c : Dev nD) : W3 m ρ c (Proc.devRef .tc main_v1) = (W2 m ρ c (Proc.devRef .tc main_v1)) := by
  show StableHlo.after hostOps0_2 (W2 m ρ c) (Proc.devRef .tc main_v1) = _
  generalize W2 m ρ c = Wv
  dsimp only [hostOps0_2]
  after_results_simp <;> rfl

set_option maxHeartbeats 2000000 in
theorem s2_dests (c : Dev nD) : W3 m ρ c (Proc.devRef .tc main_v3) = (W2 m ρ c (Proc.devRef .tc main_v3)) := by
  show StableHlo.after hostOps0_2 (W2 m ρ c) (Proc.devRef .tc main_v3) = _
  generalize W2 m ρ c = Wv
  dsimp only [hostOps0_2]
  after_results_simp <;> rfl

set_option maxHeartbeats 2000000 in
theorem s2_row4 (c : Dev nD) : W3 m ρ c (Proc.devRef .tc main_v22) = shapeCast S1x64 (W2 m ρ c (Proc.devRef .tc main_arg4) : (⟨S64, .f32⟩ : BufTy).Contents (Elt Ideal)) shapeCasts_S64_S1x64 := by
  show StableHlo.after hostOps0_2 (W2 m ρ c) (Proc.devRef .tc main_v22) = _
  generalize W2 m ρ c = Wv
  dsimp only [hostOps0_2]
  after_results_simp <;> rfl

set_option maxHeartbeats 2000000 in
theorem s2_row5 (c : Dev nD) : W3 m ρ c (Proc.devRef .tc main_v23) = shapeCast S1x64 (W2 m ρ c (Proc.devRef .tc main_arg5) : (⟨S64, .f32⟩ : BufTy).Contents (Elt Ideal)) shapeCasts_S64_S1x64 := by
  show StableHlo.after hostOps0_2 (W2 m ρ c) (Proc.devRef .tc main_v23) = _
  generalize W2 m ρ c = Wv
  dsimp only [hostOps0_2]
  after_results_simp <;> rfl

set_option maxHeartbeats 2000000 in
theorem s2_row6 (c : Dev nD) : W3 m ρ c (Proc.devRef .tc main_v24) = shapeCast S1x64 (W2 m ρ c (Proc.devRef .tc main_arg6) : (⟨S64, .f32⟩ : BufTy).Contents (Elt Ideal)) shapeCasts_S64_S1x64 := by
  show StableHlo.after hostOps0_2 (W2 m ρ c) (Proc.devRef .tc main_v24) = _
  generalize W2 m ρ c = Wv
  dsimp only [hostOps0_2]
  after_results_simp <;> rfl

set_option maxHeartbeats 2000000 in
theorem s2_arg0 (c : Dev nD) : W3 m ρ c (Proc.devRef .tc main_arg0) = (W2 m ρ c (Proc.devRef .tc main_arg0)) := by
  show StableHlo.after hostOps0_2 (W2 m ρ c) (Proc.devRef .tc main_arg0) = _
  generalize W2 m ρ c = Wv
  dsimp only [hostOps0_2]
  after_results_simp <;> rfl

set_option maxHeartbeats 2000000 in
theorem s2_arg2 (c : Dev nD) : W3 m ρ c (Proc.devRef .tc main_arg2) = (W2 m ρ c (Proc.devRef .tc main_arg2)) := by
  show StableHlo.after hostOps0_2 (W2 m ρ c) (Proc.devRef .tc main_arg2) = _
  generalize W2 m ρ c = Wv
  dsimp only [hostOps0_2]
  after_results_simp <;> rfl

set_option maxHeartbeats 2000000 in
theorem s2_arg3 (c : Dev nD) : W3 m ρ c (Proc.devRef .tc main_arg3) = (W2 m ρ c (Proc.devRef .tc main_arg3)) := by
  show StableHlo.after hostOps0_2 (W2 m ρ c) (Proc.devRef .tc main_arg3) = _
  generalize W2 m ρ c = Wv
  dsimp only [hostOps0_2]
  after_results_simp <;> rfl

set_option maxHeartbeats 2000000 in
theorem s2_arg7 (c : Dev nD) : W3 m ρ c (Proc.devRef .tc main_arg7) = (W2 m ρ c (Proc.devRef .tc main_arg7)) := by
  show StableHlo.after hostOps0_2 (W2 m ρ c) (Proc.devRef .tc main_arg7) = _
  generalize W2 m ρ c = Wv
  dsimp only [hostOps0_2]
  after_results_simp <;> rfl

set_option maxHeartbeats 2000000 in
theorem s2_arg8 (c : Dev nD) : W3 m ρ c (Proc.devRef .tc main_arg8) = (W2 m ρ c (Proc.devRef .tc main_arg8)) := by
  show StableHlo.after hostOps0_2 (W2 m ρ c) (Proc.devRef .tc main_arg8) = _
  generalize W2 m ρ c = Wv
  dsimp only [hostOps0_2]
  after_results_simp <;> rfl

set_option maxHeartbeats 2000000 in
theorem s2_arg9 (c : Dev nD) : W3 m ρ c (Proc.devRef .tc main_arg9) = (W2 m ρ c (Proc.devRef .tc main_arg9)) := by
  show StableHlo.after hostOps0_2 (W2 m ρ c) (Proc.devRef .tc main_arg9) = _
  generalize W2 m ρ c = Wv
  dsimp only [hostOps0_2]
  after_results_simp <;> rfl

set_option maxHeartbeats 2000000 in
theorem s2_arg10 (c : Dev nD) : W3 m ρ c (Proc.devRef .tc main_arg10) = (W2 m ρ c (Proc.devRef .tc main_arg10)) := by
  show StableHlo.after hostOps0_2 (W2 m ρ c) (Proc.devRef .tc main_arg10) = _
  generalize W2 m ρ c = Wv
  dsimp only [hostOps0_2]
  after_results_simp <;> rfl

set_option maxHeartbeats 2000000 in
theorem s2_arg11 (c : Dev nD) : W3 m ρ c (Proc.devRef .tc main_arg11) = (W2 m ρ c (Proc.devRef .tc main_arg11)) := by
  show StableHlo.after hostOps0_2 (W2 m ρ c) (Proc.devRef .tc main_arg11) = _
  generalize W2 m ρ c = Wv
  dsimp only [hostOps0_2]
  after_results_simp <;> rfl

/-! ## Joined: what the first grid is entered with, in terms of the launch arguments -/

theorem entry0_arg0 (c : Dev nD) : W3 m ρ c (Proc.devRef .tc main_arg0) = m ((c : Thread nD τ).loc main_arg0) := by
  rw [s2_arg0, s1_arg0, s0_arg0, launch_arg0]
theorem entry0_arg2 (c : Dev nD) : W3 m ρ c (Proc.devRef .tc main_arg2) = m ((c : Thread nD τ).loc main_arg2) := by
  rw [s2_arg2, s1_arg2, s0_arg2, launch_arg2]
theorem entry0_arg3 (c : Dev nD) : W3 m ρ c (Proc.devRef .tc main_arg3) = m ((c : Thread nD τ).loc main_arg3) := by
  rw [s2_arg3, s1_arg3, s0_arg3, launch_arg3]
theorem entry0_arg7 (c : Dev nD) : W3 m ρ c (Proc.devRef .tc main_arg7) = m ((c : Thread nD τ).loc main_arg7) := by
  rw [s2_arg7, s1_arg7, s0_arg7, launch_arg7]
theorem entry0_arg8 (c : Dev nD) : W3 m ρ c (Proc.devRef .tc main_arg8) = m ((c : Thread nD τ).loc main_arg8) := by
  rw [s2_arg8, s1_arg8, s0_arg8, launch_arg8]
theorem entry0_arg9 (c : Dev nD) : W3 m ρ c (Proc.devRef .tc main_arg9) = m ((c : Thread nD τ).loc main_arg9) := by
  rw [s2_arg9, s1_arg9, s0_arg9, launch_arg9]
theorem entry0_arg10 (c : Dev nD) : W3 m ρ c (Proc.devRef .tc main_arg10) = m ((c : Thread nD τ).loc main_arg10) := by
  rw [s2_arg10, s1_arg10, s0_arg10, launch_arg10]
theorem entry0_arg11 (c : Dev nD) : W3 m ρ c (Proc.devRef .tc main_arg11) = m ((c : Thread nD τ).loc main_arg11) := by
  rw [s2_arg11, s1_arg11, s0_arg11, launch_arg11]
theorem entry0_row4 (c : Dev nD) : W3 m ρ c (Proc.devRef .tc main_v22) = shapeCast S1x64 (m ((c : Thread nD τ).loc main_arg4)) shapeCasts_S64_S1x64 := by
  rw [s2_row4, s1_arg4, s0_arg4, launch_arg4]
theorem entry0_row5 (c : Dev nD) : W3 m ρ c (Proc.devRef .tc main_v23) = shapeCast S1x64 (m ((c : Thread nD τ).loc main_arg5)) shapeCasts_S64_S1x64 := by
  rw [s2_row5, s1_arg5, s0_arg5, launch_arg5]
theorem entry0_row6 (c : Dev nD) : W3 m ρ c (Proc.devRef .tc main_v24) = shapeCast S1x64 (m ((c : Thread nD τ).loc main_arg6)) shapeCasts_S64_S1x64 := by
  rw [s2_row6, s1_arg6, s0_arg6, launch_arg6]
theorem entry0_sources (c : Dev nD) : W3 m ρ c (Proc.devRef .tc main_v1) = sources (F := Ideal) (m ((c : Thread nD τ).loc main_arg1)) := by
  rw [s2_sources, s1_sources, s0_sources, launch_arg1]
theorem entry0_dests (c : Dev nD) : W3 m ρ c (Proc.devRef .tc main_v3) = dests (F := Ideal) (m ((c : Thread nD τ).loc main_arg1)) := by
  rw [s2_dests, s1_dests, s0_dests, launch_arg1]
theorem entry0_counts (c : Dev nD) : W3 m ρ c (Proc.devRef .tc main_v9) = counts (F := Ideal) (m ((c : Thread nD τ).loc main_arg1)) := by
  rw [s2_counts, s1_clamped, s0_one, s0_counts_raw, launch_arg1]
  rfl
theorem entry0_means (c : Dev nD) : W3 m ρ c (Proc.devRef .tc main_v21) = aggregate128 (F := Ideal) (m ((c : Thread nD τ).loc main_arg0)) (m ((c : Thread nD τ).loc main_arg1)) := by
  rw [s2_means, s1_clamped, s0_one, s0_counts_raw, s1_sources, s0_sources, s1_dests, s0_dests, s1_arg0, s0_arg0, launch_arg0, launch_arg1]
  rfl

/-! ## After the first grid: its result is the first layer; every buffer that is not one of its arrays is as before -/

/-- The first layer of the arguments: node features and their neighbour means through the first weights, bias, scale, shift. -/
def hidden (c : Dev nD) : S100000x64.Idx → EReal :=
  Sage.layer (N := 100000) (K := 128) (M := 64) (m ((c : Thread nD τ).loc main_arg0)) (aggregate128 (F := Ideal) (m ((c : Thread nD τ).loc main_arg0)) (m ((c : Thread nD τ).loc main_arg1))) (m ((c : Thread nD τ).loc main_arg2)) (m ((c : Thread nD τ).loc main_arg3))
    (fun j => m ((c : Thread nD τ).loc main_arg4) (ix1 j)) (fun j => m ((c : Thread nD τ).loc main_arg5) (ix1 j)) (fun j => m ((c : Thread nD τ).loc main_arg6) (ix1 j))
    (Ideal.ofBits .f32 0x42800000#32) (Ideal.ofBits .f32 0x3727C5AC#32) (Ideal.ofBits .f32 0x00000000#32)

theorem exit0_hidden (c : Dev nD) : W4 m ρ c (Proc.devRef .tc main_v25) = hidden m c := by
  refine (W4_arr m ρ c 7).trans ?_
  refine (Arrays0.final (V3 m ρ) c).trans ?_
  unfold Arrays0.whole hidden
  show Sage.layer (W3 m ρ c (Proc.devRef .tc main_arg0)) (W3 m ρ c (Proc.devRef .tc main_v21)) (W3 m ρ c (Proc.devRef .tc main_arg2)) (W3 m ρ c (Proc.devRef .tc main_arg3))
      (fun j => W3 m ρ c (Proc.devRef .tc main_v22) (ix2 (0 : Fin 1) j)) (fun j => W3 m ρ c (Proc.devRef .tc main_v23) (ix2 (0 : Fin 1) j))
      (fun j => W3 m ρ c (Proc.devRef .tc main_v24) (ix2 (0 : Fin 1) j)) _ _ _ = _
  rw [entry0_arg0, entry0_means, entry0_arg2, entry0_arg3, entry0_row4, entry0_row5, entry0_row6]
  simp only [RowForm.row_of_reshape]

theorem exit0_arg7 (c : Dev nD) : W4 m ρ c (Proc.devRef .tc main_arg7) = m ((c : Thread nD τ).loc main_arg7) :=
  (W4_of_ne m ρ c main_arg7 (by decide)).trans (entry0_arg7 m ρ c)
theorem exit0_arg8 (c : Dev nD) : W4 m ρ c (Proc.devRef .tc main_arg8) = m ((c : Thread nD τ).loc main_arg8) :=
  (W4_of_ne m ρ c main_arg8 (by decide)).trans (entry0_arg8 m ρ c)
theorem exit0_arg9 (c : Dev nD) : W4 m ρ c (Proc.devRef .tc main_arg9) = m ((c : Thread nD τ).loc main_arg9) :=
  (W4_of_ne m ρ c main_arg9 (by decide)).trans (entry0_arg9 m ρ c)
theorem exit0_arg10 (c : Dev nD) : W4 m ρ c (Proc.devRef .tc main_arg10) = m ((c : Thread nD τ).loc main_arg10) :=
  (W4_of_ne m ρ c main_arg10 (by decide)).trans (entry0_arg10 m ρ c)
theorem exit0_arg11 (c : Dev nD) : W4 m ρ c (Proc.devRef .tc main_arg11) = m ((c : Thread nD τ).loc main_arg11) :=
  (W4_of_ne m ρ c main_arg11 (by decide)).trans (entry0_arg11 m ρ c)
theorem exit0_sources (c : Dev nD) : W4 m ρ c (Proc.devRef .tc main_v1) = sources (F := Ideal) (m ((c : Thread nD τ).loc main_arg1)) :=
  (W4_of_ne m ρ c main_v1 (by decide)).trans (entry0_sources m ρ c)
theorem exit0_dests (c : Dev nD) : W4 m ρ c (Proc.devRef .tc main_v3) = dests (F := Ideal) (m ((c : Thread nD τ).loc main_arg1)) :=
  (W4_of_ne m ρ c main_v3 (by decide)).trans (entry0_dests m ρ c)
theorem exit0_counts (c : Dev nD) : W4 m ρ c (Proc.devRef .tc main_v9) = counts (F := Ideal) (m ((c : Thread nD τ).loc main_arg1)) :=
  (W4_of_ne m ρ c main_v9 (by decide)).trans (entry0_counts m ρ c)

/-! ## Fourth stretch: the second neighbour means, of the first layer's result, and the second layer's three rows -/

set_option maxHeartbeats 2000000 in
theorem s3_hidden (c : Dev nD) : W5 m ρ c (Proc.devRef .tc main_v25) = (W4 m ρ c (Proc.devRef .tc main_v25)) := by
  show StableHlo.after hostOps1 (W4 m ρ c) (Proc.devRef .tc main_v25) = _
  generalize W4 m ρ c = Wv
  dsimp only [hostOps1]
  after_results_simp <;> rfl

set_option maxHeartbeats 2000000 in
theorem s3_means (c : Dev nD) : W5 m ρ c (Proc.devRef .tc main_v37) = Host.divf (F := Ideal) (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (W4 m ρ c (Proc.devRef .tc main_v3))) (Host.gather gather_S100000x64_S1600000x1_S1600000x64_1_0_n_n_0_1_164 (W4 m ρ c (Proc.devRef .tc main_v25)) (broadcastInDim S1600000x1 ![0] bcast_S1600000_S1600000x1_0 (select (cmpi .slt (W4 m ρ c (Proc.devRef .tc main_v1)) (broadcastInDim S1600000 ![] bcast_S_S1600000 (constantI S_ 32 0#32))) (addi (W4 m ρ c (Proc.devRef .tc main_v1)) (broadcastInDim S1600000 ![] bcast_S_S1600000 (constantI S_ 32 100000#32))) (W4 m ρ c (Proc.devRef .tc main_v1)))))) (broadcastInDim S100000x64 ![0, 1] bcast_S100000x1_S100000x64_0_1 (W4 m ρ c (Proc.devRef .tc main_v9))) := by
  show StableHlo.after hostOps1 (W4 m ρ c) (Proc.devRef .tc main_v37) = _
  generalize W4 m ρ c = Wv
  dsimp only [hostOps1]
  after_results_simp <;> rfl

set_option maxHeartbeats 2000000 in
theorem s3_row9 (c : Dev nD) : W5 m ρ c (Proc.devRef .tc main_v38) = shapeCast S1x32 (W4 m ρ c (Proc.devRef .tc main_arg9) : (⟨S32, .f32⟩ : BufTy).Contents (Elt Ideal)) shapeCasts_S32_S1x32 := by
  show StableHlo.after hostOps1 (W4 m ρ c) (Proc.devRef .tc main_v38) = _
  generalize W4 m ρ c = Wv
  dsimp only [hostOps1]
  after_results_simp <;> rfl

set_option maxHeartbeats 2000000 in
theorem s3_row10 (c : Dev nD) : W5 m ρ c (Proc.devRef .tc main_v39) = shapeCast S1x32 (W4 m ρ c (Proc.devRef .tc main_arg10) : (⟨S32, .f32⟩ : BufTy).Contents (Elt Ideal)) shapeCasts_S32_S1x32 := by
  show StableHlo.after hostOps1 (W4 m ρ c) (Proc.devRef .tc main_v39) = _
  generalize W4 m ρ c = Wv
  dsimp only [hostOps1]
  after_results_simp <;> rfl

set_option maxHeartbeats 2000000 in
theorem s3_row11 (c : Dev nD) : W5 m ρ c (Proc.devRef .tc main_v40) = shapeCast S1x32 (W4 m ρ c (Proc.devRef .tc main_arg11) : (⟨S32, .f32⟩ : BufTy).Contents (Elt Ideal)) shapeCasts_S32_S1x32 := by
  show StableHlo.after hostOps1 (W4 m ρ c) (Proc.devRef .tc main_v40) = _
  generalize W4 m ρ c = Wv
  dsimp only [hostOps1]
  after_results_simp <;> rfl

set_option maxHeartbeats 2000000 in
theorem s3_arg7 (c : Dev nD) : W5 m ρ c (Proc.devRef .tc main_arg7) = (W4 m ρ c (Proc.devRef .tc main_arg7)) := by
  show StableHlo.after hostOps1 (W4 m ρ c) (Proc.devRef .tc main_arg7) = _
  generalize W4 m ρ c = Wv
  dsimp only [hostOps1]
  after_results_simp <;> rfl

set_option maxHeartbeats 2000000 in
theorem s3_arg8 (c : Dev nD) : W5 m ρ c (Proc.devRef .tc main_arg8) = (W4 m ρ c (Proc.devRef .tc main_arg8)) := by
  show StableHlo.after hostOps1 (W4 m ρ c) (Proc.devRef .tc main_arg8) = _
  generalize W4 m ρ c = Wv
  dsimp only [hostOps1]
  after_results_simp <;> rfl

theorem entry1_hidden (c : Dev nD) : W5 m ρ c (Proc.devRef .tc main_v25) = hidden m c := by
  rw [s3_hidden, exit0_hidden]
theorem entry1_means (c : Dev nD) : W5 m ρ c (Proc.devRef .tc main_v37) = aggregate64 (F := Ideal) (hidden m c) (m ((c : Thread nD τ).loc main_arg1)) := by
  rw [s3_means, exit0_hidden, exit0_sources, exit0_dests, exit0_counts]
  rfl
theorem entry1_arg7 (c : Dev nD) : W5 m ρ c (Proc.devRef .tc main_arg7) = m ((c : Thread nD τ).loc main_arg7) := by
  rw [s3_arg7, exit0_arg7]
theorem entry1_arg8 (c : Dev nD) : W5 m ρ c (Proc.devRef .tc main_arg8) = m ((c : Thread nD τ).loc main_arg8) := by
  rw [s3_arg8, exit0_arg8]
theorem entry1_row9 (c : Dev nD) : W5 m ρ c (Proc.devRef .tc main_v38) = shapeCast S1x32 (m ((c : Thread nD τ).loc main_arg9)) shapeCasts_S32_S1x32 := by
  rw [s3_row9, exit0_arg9]
theorem entry1_row10 (c : Dev nD) : W5 m ρ c (Proc.devRef .tc main_v39) = shapeCast S1x32 (m ((c : Thread nD τ).loc main_arg10)) shapeCasts_S32_S1x32 := by
  rw [s3_row10, exit0_arg10]
theorem entry1_row11 (c : Dev nD) : W5 m ρ c (Proc.devRef .tc main_v40) = shapeCast S1x32 (m ((c : Thread nD τ).loc main_arg11)) shapeCasts_S32_S1x32 := by
  rw [s3_row11, exit0_arg11]

/-! ## After the second grid -/

/-- The second layer of the first layer's result and of its neighbour means. -/
def output (c : Dev nD) : S100000x32.Idx → EReal :=
  Sage.layer (N := 100000) (K := 64) (M := 32) (hidden m c) (aggregate64 (F := Ideal) (hidden m c) (m ((c : Thread nD τ).loc main_arg1))) (m ((c : Thread nD τ).loc main_arg7)) (m ((c : Thread nD τ).loc main_arg8))
    (fun j => m ((c : Thread nD τ).loc main_arg9) (ix1 j)) (fun j => m ((c : Thread nD τ).loc main_arg10) (ix1 j)) (fun j => m ((c : Thread nD τ).loc main_arg11) (ix1 j))
    (Ideal.ofBits .f32 0x42000000#32) (Ideal.ofBits .f32 0x3727C5AC#32) (Ideal.ofBits .f32 0x00000000#32)

/-- THE RESULT BUFFER at the last boundary: the second layer of the first. -/
theorem exit1_output (c : Dev nD) : W6 m ρ c (Proc.devRef .tc main_v41) = output m c := by
  refine (W6_arr m ρ c 7).trans ?_
  refine (Arrays1.final (V5 m ρ) c).trans ?_
  unfold Arrays1.whole output
  show Sage.layer (W5 m ρ c (Proc.devRef .tc main_v25)) (W5 m ρ c (Proc.devRef .tc main_v37)) (W5 m ρ c (Proc.devRef .tc main_arg7)) (W5 m ρ c (Proc.devRef .tc main_arg8))
      (fun j => W5 m ρ c (Proc.devRef .tc main_v38) (ix2 (0 : Fin 1) j)) (fun j => W5 m ρ c (Proc.devRef .tc main_v39) (ix2 (0 : Fin 1) j))
      (fun j => W5 m ρ c (Proc.devRef .tc main_v40) (ix2 (0 : Fin 1) j)) _ _ _ = _
  rw [entry1_hidden, entry1_means, entry1_arg7, entry1_arg8, entry1_row9, entry1_row10, entry1_row11]
  simp only [RowForm.row_of_reshape]

/-- THE RUN, READ: the result array ends at the two layers of the arguments, the arguments as launched. -/
theorem run : θ_run defs (onTc (τ := τ) (main (F := Ideal))) ⟨m, fun _ => 0, ρ⟩ (fun r => ∀ c : Dev nD,
      r.2.mem ((c.tc : Thread nD τ).loc main_v41) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (exit1_output m ρ c), (h c).2⟩) (ValueRun.run_out m ρ)

end Cert.KernelIdeal.Value

end
-- ==== Proof.RefLayer0.lean ====
/-
  The reference's layer 0, stage by stage, is the layer formula of its operands.

  The reference computes the layer on whole arrays: two products with the weight matrices, the bias row stretched over all
  rows, a sum over each row divided by the row length, the centred rows, the mean of their squares, the reciprocal square
  root, scale, shift and a maximum with zero. Read at an index (p, q), each stage depends only on row p of the two
  feature arrays; the sums start from the zero word, which is the real number zero.
-/
import proofs.«170184_j14783277433239_1_alg».proof.Proof.Gen.ReferenceIdeal.Read
import proofs.«170184_j14783277433239_1_alg».proof.Proof.DenseSpec
import Idealize.ShloMosaic.PureOps.Ideal.Laws

set_option maxRecDepth 16384

noncomputable section

open scoped BigOperators

namespace Cert.ReferenceIdeal.Layer0

open Cert.ReferenceIdeal Cert.ReferenceIdeal.Read Idealize.ShloMosaic Idealize.ShloMosaic.ValueIdx

/-! ## The stages' index functions at (p, j) -/

theorem lidx_self (p : Fin 100000) (j : Fin 64) (k : Fin 128) : lidx_main_v22 (ix2 p j) k = ix2 p k :=
  funext fun a => Fin.ext (by match a with | ⟨0, _⟩ => rfl | ⟨1, _⟩ => rfl)
theorem ridx_self (p : Fin 100000) (j : Fin 64) (k : Fin 128) : ridx_main_v22 (ix2 p j) k = ix2 k j :=
  funext fun a => Fin.ext (by match a with | ⟨0, _⟩ => rfl | ⟨1, _⟩ => rfl)
theorem lidx_neigh (p : Fin 100000) (j : Fin 64) (k : Fin 128) : lidx_main_v23 (ix2 p j) k = ix2 p k :=
  funext fun a => Fin.ext (by match a with | ⟨0, _⟩ => rfl | ⟨1, _⟩ => rfl)
theorem ridx_neigh (p : Fin 100000) (j : Fin 64) (k : Fin 128) : ridx_main_v23 (ix2 p j) k = ix2 k j :=
  funext fun a => Fin.ext (by match a with | ⟨0, _⟩ => rfl | ⟨1, _⟩ => rfl)
theorem idx_bias (p : Fin 100000) (j : Fin 64) : idx_main_v25 (idx_main_v26 (ix2 p j)) = ix1 j :=
  funext fun a => Fin.ext (by match a with | ⟨0, _⟩ => rfl)
theorem idx_scale (p : Fin 100000) (j : Fin 64) : idx_main_v46 (idx_main_v47 (ix2 p j)) = ix1 j :=
  funext fun a => Fin.ext (by match a with | ⟨0, _⟩ => rfl)
theorem idx_shift (p : Fin 100000) (j : Fin 64) : idx_main_v49 (idx_main_v50 (ix2 p j)) = ix1 j :=
  funext fun a => Fin.ext (by match a with | ⟨0, _⟩ => rfl)
theorem idx_sum1 (p : Fin 100000) (k : Fin 64) : idx_main_v28 (idx_main_v29 (ix2 p (0 : Fin 1))) k = ix2 p k :=
  funext fun a => Fin.ext (by match a with | ⟨0, _⟩ => rfl | ⟨1, _⟩ => rfl)
theorem idx_sum2 (p : Fin 100000) (k : Fin 64) : idx_main_v35 (idx_main_v36 (ix2 p (0 : Fin 1))) k = ix2 p k :=
  funext fun a => Fin.ext (by match a with | ⟨0, _⟩ => rfl | ⟨1, _⟩ => rfl)
theorem idx_col1 (p : Fin 100000) (j : Fin 64) : idx_main_v32 (ix2 p j) = ix2 p (0 : Fin 1) :=
  funext fun a => Fin.ext (by match a with | ⟨0, _⟩ => rfl | ⟨1, _⟩ => rfl)
theorem idx_col2 (p : Fin 100000) (j : Fin 64) : idx_main_v39 (ix2 p j) = ix2 p (0 : Fin 1) :=
  funext fun a => Fin.ext (by match a with | ⟨0, _⟩ => rfl | ⟨1, _⟩ => rfl)
theorem idx_col3 (p : Fin 100000) (j : Fin 64) : idx_main_v44 (ix2 p j) = ix2 p (0 : Fin 1) :=
  funext fun a => Fin.ext (by match a with | ⟨0, _⟩ => rfl | ⟨1, _⟩ => rfl)

section
variable (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S128x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal))

/-- The affine stage at (p, j). -/
theorem affine_at (p : Fin 100000) (j : Fin 64) :
    val_main_v27 (F := Ideal) x0 x1 x2 x3 x4 (ix2 p j)
      = Sage.affine (fun k => (x0) (ix2 p k)) (fun k => (val_main_v21 (F := Ideal) x0 x1) (ix2 p k)) (fun k j => x2 (ix2 k j)) (fun k j => x3 (ix2 k j))
          (fun j => x4 (ix1 j)) j := by
  rw [val_main_v27_apply, val_main_v24_apply, val_main_v22_apply, val_main_v23_apply, val_main_v26_apply, val_main_v25_apply]
  simp only [lidx_self, ridx_self, lidx_neigh, ridx_neigh, idx_bias]
  rfl

/-- The row mean at (p, 0). -/
theorem mean_at (p : Fin 100000) :
    val_main_v31 (F := Ideal) x0 x1 x2 x3 x4 (ix2 p (0 : Fin 1)) = Sage.mean (fun j => val_main_v27 (F := Ideal) x0 x1 x2 x3 x4 (ix2 p j)) (Ideal.ofBits .f32 0x42800000#32) := by
  rw [val_main_v31_apply, val_main_v29_apply, val_main_v28_apply, val_main_v30_apply, val_main_cst_5_apply, val_main_cst_4_apply]
  simp only [idx_sum1]
  show Ideal.div (Ideal.ofBits .f32 0x00000000#32 + _) _ = _
  rw [Ideal.ofBits_zero_f32, zero_add]
  rfl

/-- The centred rows at (p, j), both times the reference forms them. -/
theorem centred_at (p : Fin 100000) (j : Fin 64) :
    val_main_v33 (F := Ideal) x0 x1 x2 x3 x4 (ix2 p j) = val_main_v27 (F := Ideal) x0 x1 x2 x3 x4 (ix2 p j) - Sage.mean (fun j => val_main_v27 (F := Ideal) x0 x1 x2 x3 x4 (ix2 p j)) (Ideal.ofBits .f32 0x42800000#32) := by
  rw [val_main_v33_apply, val_main_v32_apply, idx_col1, mean_at]
  rfl
theorem centred_at' (p : Fin 100000) (j : Fin 64) :
    val_main_v40 (F := Ideal) x0 x1 x2 x3 x4 (ix2 p j) = val_main_v27 (F := Ideal) x0 x1 x2 x3 x4 (ix2 p j) - Sage.mean (fun j => val_main_v27 (F := Ideal) x0 x1 x2 x3 x4 (ix2 p j)) (Ideal.ofBits .f32 0x42800000#32) := by
  rw [val_main_v40_apply, val_main_v39_apply, idx_col2, mean_at]
  rfl

/-- The mean of the squared deviations at (p, 0). -/
theorem var_at (p : Fin 100000) :
    val_main_v38 (F := Ideal) x0 x1 x2 x3 x4 (ix2 p (0 : Fin 1))
      = Sage.mean (fun j => (val_main_v27 (F := Ideal) x0 x1 x2 x3 x4 (ix2 p j) - Sage.mean (fun j => val_main_v27 (F := Ideal) x0 x1 x2 x3 x4 (ix2 p j)) (Ideal.ofBits .f32 0x42800000#32))
          * (val_main_v27 (F := Ideal) x0 x1 x2 x3 x4 (ix2 p j) - Sage.mean (fun j => val_main_v27 (F := Ideal) x0 x1 x2 x3 x4 (ix2 p j)) (Ideal.ofBits .f32 0x42800000#32))) (Ideal.ofBits .f32 0x42800000#32) := by
  rw [val_main_v38_apply, val_main_v36_apply, val_main_v35_apply, val_main_v37_apply, val_main_cst_7_apply, val_main_cst_6_apply]
  simp only [idx_sum2, val_main_v34_apply, centred_at]
  show Ideal.div (Ideal.ofBits .f32 0x00000000#32 + _) _ = _
  rw [Ideal.ofBits_zero_f32, zero_add]
  rfl

/-- THE LAYER'S RESULT at (p, q): the layer formula of row p of its two feature operands. -/
theorem result_at (p : Fin 100000) (q : Fin 64) :
    val_main_v52 (F := Ideal) x0 x1 x2 x3 x4 x5 x6 (ix2 p q)
      = Sage.layer (x0) (val_main_v21 (F := Ideal) x0 x1) x2 x3 (fun j => x4 (ix1 j)) (fun j => x5 (ix1 j)) (fun j => x6 (ix1 j))
          (Ideal.ofBits .f32 0x42800000#32) (Ideal.ofBits .f32 0x3727C5AC#32) (Ideal.ofBits .f32 0x00000000#32) (ix2 p q) := by
  rw [Sage.layer_apply]
  unfold Sage.normRelu
  rw [val_main_v52_apply, val_main_v51_apply, val_main_v48_apply, val_main_v45_apply, val_main_v44_apply, val_main_v43_apply, val_main_v42_apply, val_main_v41_apply, val_main_cst_8_apply,
    val_main_v47_apply, val_main_v46_apply, val_main_v50_apply, val_main_v49_apply, val_main_call1_v0_apply, val_main_call1_cst_apply,
    idx_col3, idx_scale, idx_shift, centred_at', var_at]
  simp only [affine_at]
  rfl

/-- The layer's result as a whole array. -/
theorem result_eq :
    val_main_v52 (F := Ideal) x0 x1 x2 x3 x4 x5 x6
      = Sage.layer (x0) (val_main_v21 (F := Ideal) x0 x1) x2 x3 (fun j => x4 (ix1 j)) (fun j => x5 (ix1 j)) (fun j => x6 (ix1 j))
          (Ideal.ofBits .f32 0x42800000#32) (Ideal.ofBits .f32 0x3727C5AC#32) (Ideal.ofBits .f32 0x00000000#32) := by
  funext i
  obtain ⟨p, q, rfl⟩ : ∃ (p : Fin 100000) (q : Fin 64), i = ix2 p q := ⟨i 0, i 1, eq_ix2 i⟩
  exact result_at x0 x1 x2 x3 x4 x5 x6 p q

end

end Cert.ReferenceIdeal.Layer0

end
-- ==== Proof.RefLayer1.lean ====
/-
  The reference's layer 1, stage by stage, is the layer formula of its operands.

  The reference computes the layer on whole arrays: two products with the weight matrices, the bias row stretched over all
  rows, a sum over each row divided by the row length, the centred rows, the mean of their squares, the reciprocal square
  root, scale, shift and a maximum with zero. Read at an index (p, q), each stage depends only on row p of the two
  feature arrays; the sums start from the zero word, which is the real number zero.
-/
import proofs.«170184_j14783277433239_1_alg».proof.Proof.Gen.ReferenceIdeal.Read
import proofs.«170184_j14783277433239_1_alg».proof.Proof.DenseSpec
import Idealize.ShloMosaic.PureOps.Ideal.Laws

set_option maxRecDepth 16384

noncomputable section

open scoped BigOperators

namespace Cert.ReferenceIdeal.Layer1

open Cert.ReferenceIdeal Cert.ReferenceIdeal.Read Idealize.ShloMosaic Idealize.ShloMosaic.ValueIdx

/-! ## The stages' index functions at (p, j) -/

theorem lidx_self (p : Fin 100000) (j : Fin 32) (k : Fin 64) : lidx_main_v71 (ix2 p j) k = ix2 p k :=
  funext fun a => Fin.ext (by match a with | ⟨0, _⟩ => rfl | ⟨1, _⟩ => rfl)
theorem ridx_self (p : Fin 100000) (j : Fin 32) (k : Fin 64) : ridx_main_v71 (ix2 p j) k = ix2 k j :=
  funext fun a => Fin.ext (by match a with | ⟨0, _⟩ => rfl | ⟨1, _⟩ => rfl)
theorem lidx_neigh (p : Fin 100000) (j : Fin 32) (k : Fin 64) : lidx_main_v72 (ix2 p j) k = ix2 p k :=
  funext fun a => Fin.ext (by match a with | ⟨0, _⟩ => rfl | ⟨1, _⟩ => rfl)
theorem ridx_neigh (p : Fin 100000) (j : Fin 32) (k : Fin 64) : ridx_main_v72 (ix2 p j) k = ix2 k j :=
  funext fun a => Fin.ext (by match a with | ⟨0, _⟩ => rfl | ⟨1, _⟩ => rfl)
theorem idx_bias (p : Fin 100000) (j : Fin 32) : idx_main_v74 (idx_main_v75 (ix2 p j)) = ix1 j :=
  funext fun a => Fin.ext (by match a with | ⟨0, _⟩ => rfl)
theorem idx_scale (p : Fin 100000) (j : Fin 32) : idx_main_v95 (idx_main_v96 (ix2 p j)) = ix1 j :=
  funext fun a => Fin.ext (by match a with | ⟨0, _⟩ => rfl)
theorem idx_shift (p : Fin 100000) (j : Fin 32) : idx_main_v98 (idx_main_v99 (ix2 p j)) = ix1 j :=
  funext fun a => Fin.ext (by match a with | ⟨0, _⟩ => rfl)
theorem idx_sum1 (p : Fin 100000) (k : Fin 32) : idx_main_v77 (idx_main_v78 (ix2 p (0 : Fin 1))) k = ix2 p k :=
  funext fun a => Fin.ext (by match a with | ⟨0, _⟩ => rfl | ⟨1, _⟩ => rfl)
theorem idx_sum2 (p : Fin 100000) (k : Fin 32) : idx_main_v84 (idx_main_v85 (ix2 p (0 : Fin 1))) k = ix2 p k :=
  funext fun a => Fin.ext (by match a with | ⟨0, _⟩ => rfl | ⟨1, _⟩ => rfl)
theorem idx_col1 (p : Fin 100000) (j : Fin 32) : idx_main_v81 (ix2 p j) = ix2 p (0 : Fin 1) :=
  funext fun a => Fin.ext (by match a with | ⟨0, _⟩ => rfl | ⟨1, _⟩ => rfl)
theorem idx_col2 (p : Fin 100000) (j : Fin 32) : idx_main_v88 (ix2 p j) = ix2 p (0 : Fin 1) :=
  funext fun a => Fin.ext (by match a with | ⟨0, _⟩ => rfl | ⟨1, _⟩ => rfl)
theorem idx_col3 (p : Fin 100000) (j : Fin 32) : idx_main_v93 (ix2 p j) = ix2 p (0 : Fin 1) :=
  funext fun a => Fin.ext (by match a with | ⟨0, _⟩ => rfl | ⟨1, _⟩ => rfl)

section
variable (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S128x64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64x32, .f32⟩ : BufTy).Contents (Elt Ideal)) (x8 : (⟨S64x32, .f32⟩ : BufTy).Contents (Elt Ideal)) (x9 : (⟨S32, .f32⟩ : BufTy).Contents (Elt Ideal)) (x10 : (⟨S32, .f32⟩ : BufTy).Contents (Elt Ideal)) (x11 : (⟨S32, .f32⟩ : BufTy).Contents (Elt Ideal))

/-- The affine stage at (p, j). -/
theorem affine_at (p : Fin 100000) (j : Fin 32) :
    val_main_v76 (F := Ideal) x0 x1 x2 x3 x4 x5 x6 x7 x8 x9 (ix2 p j)
      = Sage.affine (fun k => (val_main_v52 (F := Ideal) x0 x1 x2 x3 x4 x5 x6) (ix2 p k)) (fun k => (val_main_v70 (F := Ideal) x0 x1 x2 x3 x4 x5 x6) (ix2 p k)) (fun k j => x7 (ix2 k j)) (fun k j => x8 (ix2 k j))
          (fun j => x9 (ix1 j)) j := by
  rw [val_main_v76_apply, val_main_v73_apply, val_main_v71_apply, val_main_v72_apply, val_main_v75_apply, val_main_v74_apply]
  simp only [lidx_self, ridx_self, lidx_neigh, ridx_neigh, idx_bias]
  rfl

/-- The row mean at (p, 0). -/
theorem mean_at (p : Fin 100000) :
    val_main_v80 (F := Ideal) x0 x1 x2 x3 x4 x5 x6 x7 x8 x9 (ix2 p (0 : Fin 1)) = Sage.mean (fun j => val_main_v76 (F := Ideal) x0 x1 x2 x3 x4 x5 x6 x7 x8 x9 (ix2 p j)) (Ideal.ofBits .f32 0x42000000#32) := by
  rw [val_main_v80_apply, val_main_v78_apply, val_main_v77_apply, val_main_v79_apply, val_main_cst_16_apply, val_main_cst_15_apply]
  simp only [idx_sum1]
  show Ideal.div (Ideal.ofBits .f32 0x00000000#32 + _) _ = _
  rw [Ideal.ofBits_zero_f32, zero_add]
  rfl

/-- The centred rows at (p, j), both times the reference forms them. -/
theorem centred_at (p : Fin 100000) (j : Fin 32) :
    val_main_v82 (F := Ideal) x0 x1 x2 x3 x4 x5 x6 x7 x8 x9 (ix2 p j) = val_main_v76 (F := Ideal) x0 x1 x2 x3 x4 x5 x6 x7 x8 x9 (ix2 p j) - Sage.mean (fun j => val_main_v76 (F := Ideal) x0 x1 x2 x3 x4 x5 x6 x7 x8 x9 (ix2 p j)) (Ideal.ofBits .f32 0x42000000#32) := by
  rw [val_main_v82_apply, val_main_v81_apply, idx_col1, mean_at]
  rfl
theorem centred_at' (p : Fin 100000) (j : Fin 32) :
    val_main_v89 (F := Ideal) x0 x1 x2 x3 x4 x5 x6 x7 x8 x9 (ix2 p j) = val_main_v76 (F := Ideal) x0 x1 x2 x3 x4 x5 x6 x7 x8 x9 (ix2 p j) - Sage.mean (fun j => val_main_v76 (F := Ideal) x0 x1 x2 x3 x4 x5 x6 x7 x8 x9 (ix2 p j)) (Ideal.ofBits .f32 0x42000000#32) := by
  rw [val_main_v89_apply, val_main_v88_apply, idx_col2, mean_at]
  rfl

/-- The mean of the squared deviations at (p, 0). -/
theorem var_at (p : Fin 100000) :
    val_main_v87 (F := Ideal) x0 x1 x2 x3 x4 x5 x6 x7 x8 x9 (ix2 p (0 : Fin 1))
      = Sage.mean (fun j => (val_main_v76 (F := Ideal) x0 x1 x2 x3 x4 x5 x6 x7 x8 x9 (ix2 p j) - Sage.mean (fun j => val_main_v76 (F := Ideal) x0 x1 x2 x3 x4 x5 x6 x7 x8 x9 (ix2 p j)) (Ideal.ofBits .f32 0x42000000#32))
          * (val_main_v76 (F := Ideal) x0 x1 x2 x3 x4 x5 x6 x7 x8 x9 (ix2 p j) - Sage.mean (fun j => val_main_v76 (F := Ideal) x0 x1 x2 x3 x4 x5 x6 x7 x8 x9 (ix2 p j)) (Ideal.ofBits .f32 0x42000000#32))) (Ideal.ofBits .f32 0x42000000#32) := by
  rw [val_main_v87_apply, val_main_v85_apply, val_main_v84_apply, val_main_v86_apply, val_main_cst_18_apply, val_main_cst_17_apply]
  simp only [idx_sum2, val_main_v83_apply, centred_at]
  show Ideal.div (Ideal.ofBits .f32 0x00000000#32 + _) _ = _
  rw [Ideal.ofBits_zero_f32, zero_add]
  rfl

/-- THE LAYER'S RESULT at (p, q): the layer formula of row p of its two feature operands. -/
theorem result_at (p : Fin 100000) (q : Fin 32) :
    val_main_v101 (F := Ideal) x0 x1 x2 x3 x4 x5 x6 x7 x8 x9 x10 x11 (ix2 p q)
      = Sage.layer (val_main_v52 (F := Ideal) x0 x1 x2 x3 x4 x5 x6) (val_main_v70 (F := Ideal) x0 x1 x2 x3 x4 x5 x6) x7 x8 (fun j => x9 (ix1 j)) (fun j => x10 (ix1 j)) (fun j => x11 (ix1 j))
          (Ideal.ofBits .f32 0x42000000#32) (Ideal.ofBits .f32 0x3727C5AC#32) (Ideal.ofBits .f32 0x00000000#32) (ix2 p q) := by
  rw [Sage.layer_apply]
  unfold Sage.normRelu
  rw [val_main_v101_apply, val_main_v100_apply, val_main_v97_apply, val_main_v94_apply, val_main_v93_apply, val_main_v92_apply, val_main_v91_apply, val_main_v90_apply, val_main_cst_19_apply,
    val_main_v96_apply, val_main_v95_apply, val_main_v99_apply, val_main_v98_apply, val_main_call3_v0_apply, val_main_call3_cst_apply,
    idx_col3, idx_scale, idx_shift, centred_at', var_at]
  simp only [affine_at]
  rfl

/-- The layer's result as a whole array. -/
theorem result_eq :
    val_main_v101 (F := Ideal) x0 x1 x2 x3 x4 x5 x6 x7 x8 x9 x10 x11
      = Sage.layer (val_main_v52 (F := Ideal) x0 x1 x2 x3 x4 x5 x6) (val_main_v70 (F := Ideal) x0 x1 x2 x3 x4 x5 x6) x7 x8 (fun j => x9 (ix1 j)) (fun j => x10 (ix1 j)) (fun j => x11 (ix1 j))
          (Ideal.ofBits .f32 0x42000000#32) (Ideal.ofBits .f32 0x3727C5AC#32) (Ideal.ofBits .f32 0x00000000#32) := by
  funext i
  obtain ⟨p, q, rfl⟩ : ∃ (p : Fin 100000) (q : Fin 32), i = ix2 p q := ⟨i 0, i 1, eq_ix2 i⟩
  exact result_at x0 x1 x2 x3 x4 x5 x6 x7 x8 x9 x10 x11 p q

end

end Cert.ReferenceIdeal.Layer1

end
-- ==== Proof.RefAgg.lean ====
/-
  The reference's neighbour means are the kernel program's: the same operations on the same operands.

  The reference forms the neighbour mean twice, once per layer, each time recomputing the edge counts; the kernel program
  computes the counts once. Stage by stage the terms coincide: slices and reshapes of the edge list, the shifted source
  indices, a gather of rows, a sum into a zero array at the destinations, and a division by the stretched counts.
-/
import proofs.«170184_j14783277433239_1_alg».proof.Proof.Gen.ReferenceIdeal.Read
import proofs.«170184_j14783277433239_1_alg».proof.Proof.HostAgg

set_option maxRecDepth 16384

noncomputable section

namespace Cert.ReferenceIdeal.Agg

open Cert.ReferenceIdeal Cert.ReferenceIdeal.Read Idealize.ShloMosaic
open Cert.KernelIdeal.HostAgg

/-- The first layer's neighbour means. -/
theorem first (x0 : (⟨S100000x128, .f32⟩ : BufTy).Contents (Elt Ideal)) (x1 : (⟨S2x1600000, .i32⟩ : BufTy).Contents (Elt Ideal)) :
    val_main_v21 (F := Ideal) x0 x1 = aggregate128 (F := Ideal) x0 x1 := by
  unfold val_main_v21 val_main_v13 val_main_v20 val_main_v19 val_main_v18 val_main_call0_v1 val_main_call0_v0 val_main_cst_3 val_main_v17 val_main_v16 val_main_v15 val_main_cst_2 val_main_v14 val_main_cst_1 val_main_v12 val_main_v11 val_main_cst val_main_v10 val_main_v9 val_main_v8 val_main_v7 val_main_v6 val_main_c_0 val_main_v5 val_main_v4 val_main_c val_main_v3 val_main_v2 val_main_v1 val_main_v0
  unfold aggregate128 counts gatherAt scatterAt sources dests
  rfl

/-- The second layer's neighbour means, of whatever the first layer produced. -/
theorem second (x0 : (⟨S100000x128, .f32⟩ : BufTy).Contents (Elt Ideal)) (x1 : (⟨S2x1600000, .i32⟩ : BufTy).Contents (Elt Ideal))
    (x2 x3 : (⟨S128x64, .f32⟩ : BufTy).Contents (Elt Ideal)) (x4 x5 x6 : (⟨S64, .f32⟩ : BufTy).Contents (Elt Ideal)) :
    val_main_v70 (F := Ideal) x0 x1 x2 x3 x4 x5 x6
      = aggregate64 (F := Ideal) (val_main_v52 (F := Ideal) x0 x1 x2 x3 x4 x5 x6) x1 := by
  unfold val_main_v70 val_main_v62 val_main_v69 val_main_v68 val_main_v67 val_main_call2_v1 val_main_call2_v0 val_main_cst_14 val_main_v66 val_main_v65 val_main_v64 val_main_cst_13 val_main_v63 val_main_cst_12 val_main_v61 val_main_v60 val_main_cst_11 val_main_v59 val_main_v58 val_main_v57 val_main_v56 val_main_v55 val_main_c_10 val_main_v54 val_main_v53 val_main_c_9 val_main_v3 val_main_v2 val_main_v1 val_main_v0
  unfold aggregate64 counts gatherAt scatterAt sources dests
  rfl

end Cert.ReferenceIdeal.Agg

end
-- ==== Proof.lean ====
/-
  Two graph layers on 100000 nodes and 1600000 edges: a tiled kernel against a whole-array reference, at the exact values.

  Both programs take node features, an edge list, and for each of two layers a pair of weight matrices with bias, scale and
  shift rows. A layer maps features X and their neighbour means A (rows of X gathered at each edge's source, summed at its
  destination, divided by the number of arriving edges, at least one) to max(LN(X·Ws + A·Wn + b)·g + be, 0), LN normalising
  each row by its mean and the mean of its squared deviations plus a small constant. The kernel program forms the
  neighbour means on the host and runs each layer as a grid over blocks of rows (20 blocks of 5000, then 10 of 10000); the
  reference computes everything on whole arrays. Over the extended reals the two are one function: an entry of a layer
  depends only on one row of X and of A, so a block of rows of the layer is the layer of the block, whatever the block
  size; a matrix product into a zero accumulator is the plain sum of products; a lane sum is the plain finite sum, the
  reference's starting from the zero word; the quotient and the reciprocal square root are the same operations on both
  sides, and the roundings to a narrower format are the identity. No finiteness of the inputs is used.

  The modules: the layer formula (DenseSpec); what one grid step stores (KernelTile0/1); what a grid leaves in its array
  (KernelArrays0/1); the neighbour means named (HostAgg) and read off the kernel program's host operations, with the
  program's run and its result (KernelRun, KernelValue); the reference's stages as the layer formula (RefLayer0/1) and
  its neighbour means as the named ones (RefAgg).
-/
import proofs.«170184_j14783277433239_1_alg».proof.Defs
import proofs.«170184_j14783277433239_1_alg».proof.Proof.Gen.Kernel
import proofs.«170184_j14783277433239_1_alg».proof.Proof.Gen.Kernel.Skeleton
import proofs.«170184_j14783277433239_1_alg».proof.Proof.Gen.Kernel.Launch
import proofs.«170184_j14783277433239_1_alg».proof.Proof.Gen.Kernel.Points
import proofs.«170184_j14783277433239_1_alg».proof.Proof.Gen.Kernel.Frame
import proofs.«170184_j14783277433239_1_alg».proof.Proof.Gen.KernelIdeal
import proofs.«170184_j14783277433239_1_alg».proof.Proof.Gen.KernelIdeal.Skeleton
import proofs.«170184_j14783277433239_1_alg».proof.Proof.Gen.KernelIdeal.Launch
import proofs.«170184_j14783277433239_1_alg».proof.Proof.Gen.KernelIdeal.Points
import proofs.«170184_j14783277433239_1_alg».proof.Proof.Gen.KernelIdeal.Frame
import proofs.«170184_j14783277433239_1_alg».proof.Proof.Gen.ReferenceIdeal
import proofs.«170184_j14783277433239_1_alg».proof.Proof.Gen.Pre_finite_inputs
import proofs.«170184_j14783277433239_1_alg».proof.Proof.Gen.ReferenceIdeal.Run
import proofs.«170184_j14783277433239_1_alg».proof.Proof.Gen.ReferenceIdeal.Read
import proofs.«170184_j14783277433239_1_alg».proof.Proof.KernelValue
import proofs.«170184_j14783277433239_1_alg».proof.Proof.RefLayer0
import proofs.«170184_j14783277433239_1_alg».proof.Proof.RefLayer1
import proofs.«170184_j14783277433239_1_alg».proof.Proof.RefAgg
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel [Cert.Kernel.Facts] [Cert.Pre_finite_inputs.Facts] : Cert.frame_Kernel :=
  fun m ρ _ => Cert.Kernel.Gen.frame m ρ

/-- So does the kernel program at the exact values. -/
theorem frame_kernelIdeal [Cert.KernelIdeal.Facts] [Cert.Pre_finite_inputs.Facts] : Cert.frame_KernelIdeal :=
  fun m ρ _ => Cert.KernelIdeal.Gen.frame m ρ

/-- And the reference: its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The reference's result is the second layer of the first layer of its arguments, the neighbour means the named ones. -/
theorem reference_result (m' : (ℓ : Loc Cert.ReferenceIdeal.nD Cert.ReferenceIdeal.τ Cert.ReferenceIdeal.sig) → Buf (Elt Ideal) ℓ)
    (m : (ℓ : Loc Cert.KernelIdeal.nD Cert.KernelIdeal.τ Cert.KernelIdeal.sig) → Buf (Elt Ideal) ℓ) (c : Dev Cert.ReferenceIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v101 (F := Ideal) m' c = Cert.KernelIdeal.Value.output m c := by
  rw [Cert.ReferenceIdeal.Read.val_main_v101_eq, Cert.ReferenceIdeal.Layer1.result_eq, Cert.ReferenceIdeal.Agg.second,
    Cert.ReferenceIdeal.Layer0.result_eq, Cert.ReferenceIdeal.Agg.first]
  rw [h0, h1, h2, h3, h4, h5, h6, h7, h8, h9, h10, h11]
  rfl

/-- From memories agreeing on the arguments both programs end with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Value.output m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  exact reference_result m' m c h0 h1 h2 h3 h4 h5 h6 h7 h8 h9 h10 h11

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
